-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v18)) (v1 : (c : Dev Cert.KernelIdeal.nD) → Buf (Elt Ideal) ((c.tc : Thread Cert.KernelIdeal.nD Cert.KernelIdeal.τ).loc Cert.KernelIdeal.main_v14_0)) (v2 : (c : Dev Cert.KernelIdeal.nD) → Buf (Elt Ideal) ((c.tc : Thread Cert.KernelIdeal.nD Cert.KernelIdeal.τ).loc Cert.KernelIdeal.main_v14_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_v14_0) = v1 c
          ∧ r.2.mem ((c.tc : Thread Cert.KernelIdeal.nD Cert.KernelIdeal.τ).loc Cert.KernelIdeal.main_v14_1) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_v38) = v1 c
          ∧ r.2.mem ((c.tc : Thread Cert.ReferenceIdeal.nD Cert.ReferenceIdeal.τ).loc Cert.ReferenceIdeal.main_v36) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S4096x2048 : S_.BroadcastsInDim S4096x2048 (![] : Fin 0 → Fin S4096x2048.rank)
  reducesTo_S4096x2048_S_d0_1 : S4096x2048.ReducesTo [0, 1] S_
  bcast_S_S2048x1024 : S_.BroadcastsInDim S2048x1024 (![] : Fin 0 → Fin S2048x1024.rank)
  reducesTo_S2048x1024_S_d0_1 : S2048x1024.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part4 {F : FTy → Type} [FloatOps F] (main_arg14 : FVec F S2048x2048 .f32) (main_arg15 : FVec F S1024x2048 .f32) (main_arg16 : FVec F S1024 .f32) (main_v63 : IVec S_ 1) (main_v67 : IVec S_ 1) : IVec S_ 1 :=
  let main_v68 : IVec S_ 1 := andi main_v63 main_v67
  let main_v69 : FVec F S2048x2048 .f32 := Host.absf main_arg14
  let main_cst_26 : FVec F S_ .f32 := constant S_ .f32 0x7F800000#32
  let main_v70 : FVec F S2048x2048 .f32 := broadcastInDim S2048x2048 ![] bcast_S_S2048x2048 main_cst_26
  let main_v71 : IVec S2048x2048 1 := cmpf .olt main_v69 main_v70
  let main_c_27 : IVec S_ 1 := constantI S_ 1 1#1
  let main_v72 : IVec S_ 1 := (fun x v => Host.reduce IntOp.andi x v reducesTo_S2048x2048_S_d0_1 h_S_) main_v71 main_c_27
  let main_v73 : IVec S_ 1 := andi main_v68 main_v72
  let main_v74 : FVec F S1024x2048 .f32 := Host.absf main_arg15
  let main_cst_28 : FVec F S_ .f32 := constant S_ .f32 0x7F800000#32
  let main_v75 : FVec F S1024x2048 .f32 := broadcastInDim S1024x2048 ![] bcast_S_S1024x2048 main_cst_28
  let main_v76 : IVec S1024x2048 1 := cmpf .olt main_v74 main_v75
  let main_c_29 : IVec S_ 1 := constantI S_ 1 1#1
  let main_v77 : IVec S_ 1 := (fun x v => Host.reduce IntOp.andi x v reducesTo_S1024x2048_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  main_v83

def fn_part3 {F : FTy → Type} [FloatOps F] (main_arg11 : FVec F S2048x2048 .f32) (main_arg12 : FVec F S2048x1024 .f32) (main_arg13 : FVec F S2048 .f32) (main_arg14 : FVec F S2048x2048 .f32) (main_arg15 : FVec F S1024x2048 .f32) (main_arg16 : FVec F S1024 .f32) (main_v48 : IVec S_ 1) (main_v49 : FVec F S2048 .f32) (main_v50 : FVec F S2048 .f32) : IVec S_ 1 :=
  let main_v51 : IVec S2048 1 := cmpf .olt main_v49 main_v50
  let main_c_19 : IVec S_ 1 := constantI S_ 1 1#1
  let main_v52 : IVec S_ 1 := (fun x v => Host.reduce IntOp.andi x v reducesTo_S2048_S_d0 h_S_) main_v51 main_c_19
  let main_v53 : IVec S_ 1 := andi main_v48 main_v52
  let main_v54 : FVec F S2048x2048 .f32 := Host.absf main_arg11
  let main_cst_20 : FVec F S_ .f32 := constant S_ .f32 0x7F800000#32
  let main_v55 : FVec F S2048x2048 .f32 := broadcastInDim S2048x2048 ![] bcast_S_S2048x2048 main_cst_20
  let main_v56 : IVec S2048x2048 1 := cmpf .olt main_v54 main_v55
  let main_c_21 : IVec S_ 1 := constantI S_ 1 1#1
  let main_v57 : IVec S_ 1 := (fun x v => Host.reduce IntOp.andi x v reducesTo_S2048x2048_S_d0_1 h_S_) main_v56 main_c_21
  let main_v58 : IVec S_ 1 := andi main_v53 main_v57
  let main_v59 : FVec F S2048x1024 .f32 := Host.absf main_arg12
  let main_cst_22 : FVec F S_ .f32 := constant S_ .f32 0x7F800000#32
  let main_v60 : FVec F S2048x1024 .f32 := broadcastInDim S2048x1024 ![] bcast_S_S2048x1024 main_cst_22
  let main_v61 : IVec S2048x1024 1 := cmpf .olt main_v59 main_v60
  let main_c_23 : IVec S_ 1 := constantI S_ 1 1#1
  let main_v62 : IVec S_ 1 := (fun x v => Host.reduce IntOp.andi x v reducesTo_S2048x1024_S_d0_1 h_S_) main_v61 main_c_23
  let main_v63 : IVec S_ 1 := andi main_v58 main_v62
  let main_v64 : FVec F S2048 .f32 := Host.absf main_arg13
  let main_cst_24 : FVec F S_ .f32 := constant S_ .f32 0x7F800000#32
  let main_v65 : FVec F S2048 .f32 := broadcastInDim S2048 ![] bcast_S_S2048 main_cst_24
  let main_v66 : IVec S2048 1 := cmpf .olt main_v64 main_v65
  let main_c_25 : IVec S_ 1 := constantI S_ 1 1#1
  let main_v67 : IVec S_ 1 := (fun x v => Host.reduce IntOp.andi x v reducesTo_S2048_S_d0 h_S_) main_v66 main_c_25
  fn_part4 (F := F) main_arg14 main_arg15 main_arg16 main_v63 main_v67

def fn_part2 {F : FTy → Type} [FloatOps F] (main_arg7 : FVec F S2048 .f32) (main_arg8 : FVec F S2048x2048 .f32) (main_arg9 : FVec F S2048x1024 .f32) (main_arg10 : FVec F S2048 .f32) (main_arg11 : FVec F S2048x2048 .f32) (main_arg12 : FVec F S2048x1024 .f32) (main_arg13 : FVec F S2048 .f32) (main_arg14 : FVec F S2048x2048 .f32) (main_arg15 : FVec F S1024x2048 .f32) (main_arg16 : FVec F S1024 .f32) (main_v33 : IVec S_ 1) : IVec S_ 1 :=
  let main_v34 : FVec F S2048 .f32 := Host.absf main_arg7
  let main_cst_12 : FVec F S_ .f32 := constant S_ .f32 0x7F800000#32
  let main_v35 : FVec F S2048 .f32 := broadcastInDim S2048 ![] bcast_S_S2048 main_cst_12
  let main_v36 : IVec S2048 1 := cmpf .olt main_v34 main_v35
  let main_c_13 : IVec S_ 1 := constantI S_ 1 1#1
  let main_v37 : IVec S_ 1 := (fun x v => Host.reduce IntOp.andi x v reducesTo_S2048_S_d0 h_S_) main_v36 main_c_13
  let main_v38 : IVec S_ 1 := andi main_v33 main_v37
  let main_v39 : FVec F S2048x2048 .f32 := Host.absf main_arg8
  let main_cst_14 : FVec F S_ .f32 := constant S_ .f32 0x7F800000#32
  let main_v40 : FVec F S2048x2048 .f32 := broadcastInDim S2048x2048 ![] bcast_S_S2048x2048 main_cst_14
  let main_v41 : IVec S2048x2048 1 := cmpf .olt main_v39 main_v40
  let main_c_15 : IVec S_ 1 := constantI S_ 1 1#1
  let main_v42 : IVec S_ 1 := (fun x v => Host.reduce IntOp.andi x v reducesTo_S2048x2048_S_d0_1 h_S_) main_v41 main_c_15
  let main_v43 : IVec S_ 1 := andi main_v38 main_v42
  let main_v44 : FVec F S2048x1024 .f32 := Host.absf main_arg9
  let main_cst_16 : FVec F S_ .f32 := constant S_ .f32 0x7F800000#32
  let main_v45 : FVec F S2048x1024 .f32 := broadcastInDim S2048x1024 ![] bcast_S_S2048x1024 main_cst_16
  let main_v46 : IVec S2048x1024 1 := cmpf .olt main_v44 main_v45
  let main_c_17 : IVec S_ 1 := constantI S_ 1 1#1
  let main_v47 : IVec S_ 1 := (fun x v => Host.reduce IntOp.andi x v reducesTo_S2048x1024_S_d0_1 h_S_) main_v46 main_c_17
  let main_v48 : IVec S_ 1 := andi main_v43 main_v47
  let main_v49 : FVec F S2048 .f32 := Host.absf main_arg10
  let main_cst_18 : FVec F S_ .f32 := constant S_ .f32 0x7F800000#32
  let main_v50 : FVec F S2048 .f32 := broadcastInDim S2048 ![] bcast_S_S2048 main_cst_18
  fn_part3 (F := F) main_arg11 main_arg12 main_arg13 main_arg14 main_arg15 main_arg16 main_v48 main_v49 main_v50

def fn_part1 {F : FTy → Type} [FloatOps F] (main_arg4 : FVec F S2048 .f32) (main_arg5 : FVec F S2048x2048 .f32) (main_arg6 : FVec F S2048x1024 .f32) (main_arg7 : FVec F S2048 .f32) (main_arg8 : FVec F S2048x2048 .f32) (main_arg9 : FVec F S2048x1024 .f32) (main_arg10 : FVec F S2048 .f32) (main_arg11 : FVec F S2048x2048 .f32) (main_arg12 : FVec F S2048x1024 .f32) (main_arg13 : FVec F S2048 .f32) (main_arg14 : FVec F S2048x2048 .f32) (main_arg15 : FVec F S1024x2048 .f32) (main_arg16 : FVec F S1024 .f32) (main_v13 : IVec S_ 1) (main_v16 : IVec S2048x1024 1) : IVec S_ 1 :=
  let main_c_5 : IVec S_ 1 := constantI S_ 1 1#1
  let main_v17 : IVec S_ 1 := (fun x v => Host.reduce IntOp.andi x v reducesTo_S2048x1024_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S2048x2048 .f32 := Host.absf main_arg5
  let main_cst_8 : FVec F S_ .f32 := constant S_ .f32 0x7F800000#32
  let main_v25 : FVec F S2048x2048 .f32 := broadcastInDim S2048x2048 ![] bcast_S_S2048x2048 main_cst_8
  let main_v26 : IVec S2048x2048 1 := cmpf .olt main_v24 main_v25
  let main_c_9 : IVec S_ 1 := constantI S_ 1 1#1
  let main_v27 : IVec S_ 1 := (fun x v => Host.reduce IntOp.andi x v reducesTo_S2048x2048_S_d0_1 h_S_) main_v26 main_c_9
  let main_v28 : IVec S_ 1 := andi main_v23 main_v27
  let main_v29 : FVec F S2048x1024 .f32 := Host.absf main_arg6
  let main_cst_10 : FVec F S_ .f32 := constant S_ .f32 0x7F800000#32
  let main_v30 : FVec F S2048x1024 .f32 := broadcastInDim S2048x1024 ![] bcast_S_S2048x1024 main_cst_10
  let main_v31 : IVec S2048x1024 1 := cmpf .olt main_v29 main_v30
  let main_c_11 : IVec S_ 1 := constantI S_ 1 1#1
  let main_v32 : IVec S_ 1 := (fun x v => Host.reduce IntOp.andi x v reducesTo_S2048x1024_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S4096x1024 .f32) (main_arg1 : FVec F S4096x2048 .f32) (main_arg2 : FVec F S4096x2048 .f32) (main_arg3 : FVec F S2048x1024 .f32) (main_arg4 : FVec F S2048 .f32) (main_arg5 : FVec F S2048x2048 .f32) (main_arg6 : FVec F S2048x1024 .f32) (main_arg7 : FVec F S2048 .f32) (main_arg8 : FVec F S2048x2048 .f32) (main_arg9 : FVec F S2048x1024 .f32) (main_arg10 : FVec F S2048 .f32) (main_arg11 : FVec F S2048x2048 .f32) (main_arg12 : FVec F S2048x1024 .f32) (main_arg13 : FVec F S2048 .f32) (main_arg14 : FVec F S2048x2048 .f32) (main_arg15 : FVec F S1024x2048 .f32) (main_arg16 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x2048 .f32 := Host.absf main_arg1
  let main_cst_0 : FVec F S_ .f32 := constant S_ .f32 0x7F800000#32
  let main_v5 : FVec F S4096x2048 .f32 := broadcastInDim S4096x2048 ![] bcast_S_S4096x2048 main_cst_0
  let main_v6 : IVec S4096x2048 1 := cmpf .olt main_v4 main_v5
  let main_c_1 : IVec S_ 1 := constantI S_ 1 1#1
  let main_v7 : IVec S_ 1 := (fun x v => Host.reduce IntOp.andi x v reducesTo_S4096x2048_S_d0_1 h_S_) main_v6 main_c_1
  let main_v8 : IVec S_ 1 := andi main_v3 main_v7
  let main_v9 : FVec F S4096x2048 .f32 := Host.absf main_arg2
  let main_cst_2 : FVec F S_ .f32 := constant S_ .f32 0x7F800000#32
  let main_v10 : FVec F S4096x2048 .f32 := broadcastInDim S4096x2048 ![] bcast_S_S4096x2048 main_cst_2
  let main_v11 : IVec S4096x2048 1 := cmpf .olt main_v9 main_v10
  let main_c_3 : IVec S_ 1 := constantI S_ 1 1#1
  let main_v12 : IVec S_ 1 := (fun x v => Host.reduce IntOp.andi x v reducesTo_S4096x2048_S_d0_1 h_S_) main_v11 main_c_3
  let main_v13 : IVec S_ 1 := andi main_v8 main_v12
  let main_v14 : FVec F S2048x1024 .f32 := Host.absf main_arg3
  let main_cst_4 : FVec F S_ .f32 := constant S_ .f32 0x7F800000#32
  let main_v15 : FVec F S2048x1024 .f32 := broadcastInDim S2048x1024 ![] bcast_S_S2048x1024 main_cst_4
  let main_v16 : IVec S2048x1024 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S1x2048 : Shape := ⟨2, ![1, 2048]⟩
abbrev S512x1024 : Shape := ⟨2, ![512, 1024]⟩
abbrev S512x2048 : Shape := ⟨2, ![512, 2048]⟩
abbrev S256x1024 : Shape := ⟨2, ![256, 1024]⟩
abbrev S256x2048 : Shape := ⟨2, ![256, 2048]⟩
abbrev S1x256 : Shape := ⟨2, ![1, 256]⟩
abbrev S512x256 : Shape := ⟨2, ![512, 256]⟩
abbrev S1x1024 : Shape := ⟨2, ![1, 1024]⟩

abbrev nBuf : Space → Nat
  | .hbm => 37
  | .vmem => 40
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x1024, .f32⟩
  | .hbm, ⟨4, _⟩ => ⟨S2048, .f32⟩
  | .hbm, ⟨5, _⟩ => ⟨S2048x2048, .f32⟩
  | .hbm, ⟨6, _⟩ => ⟨S2048x1024, .f32⟩
  | .hbm, ⟨7, _⟩ => ⟨S2048, .f32⟩
  | .hbm, ⟨8, _⟩ => ⟨S2048x2048, .f32⟩
  | .hbm, ⟨9, _⟩ => ⟨S2048x1024, .f32⟩
  | .hbm, ⟨10, _⟩ => ⟨S2048, .f32⟩
  | .hbm, ⟨11, _⟩ => ⟨S2048x2048, .f32⟩
  | .hbm, ⟨12, _⟩ => ⟨S2048x1024, .f32⟩
  | .hbm, ⟨13, _⟩ => ⟨S2048, .f32⟩
  | .hbm, ⟨14, _⟩ => ⟨S2048x2048, .f32⟩
  | .hbm, ⟨15, _⟩ => ⟨S1024x2048, .f32⟩
  | .hbm, ⟨16, _⟩ => ⟨S1024, .f32⟩
  | .hbm, ⟨17, _⟩ => ⟨S4096x1024, .bf16⟩
  | .hbm, ⟨18, _⟩ => ⟨S4096x2048, .bf16⟩
  | .hbm, ⟨19, _⟩ => ⟨S2048x1024, .bf16⟩
  | .hbm, ⟨20, _⟩ => ⟨S2048x1024, .bf16⟩
  | .hbm, ⟨21, _⟩ => ⟨S2048x1024, .bf16⟩
  | .hbm, ⟨22, _⟩ => ⟨S2048x1024, .bf16⟩
  | .hbm, ⟨23, _⟩ => ⟨S2048x2048, .bf16⟩
  | .hbm, ⟨24, _⟩ => ⟨S2048x2048, .bf16⟩
  | .hbm, ⟨25, _⟩ => ⟨S2048x2048, .bf16⟩
  | .hbm, ⟨26, _⟩ => ⟨S2048x2048, .bf16⟩
  | .hbm, ⟨27, _⟩ => ⟨S1x2048, .f32⟩
  | .hbm, ⟨28, _⟩ => ⟨S1x2048, .f32⟩
  | .hbm, ⟨29, _⟩ => ⟨S1x2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S4096x2048, .bf16⟩
  | .hbm, ⟨34, _⟩ => ⟨S1024x2048, .bf16⟩
  | .hbm, ⟨35, _⟩ => ⟨S1x1024, .f32⟩
  | .hbm, ⟨36, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S512x2048, .bf16⟩
  | .local _ .vmem, ⟨3, _⟩ => ⟨S512x2048, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S256x2048, .bf16⟩
  | .local _ .vmem, ⟨13, _⟩ => ⟨S256x2048, .bf16⟩
  | .local _ .vmem, ⟨14, _⟩ => ⟨S256x2048, .bf16⟩
  | .local _ .vmem, ⟨15, _⟩ => ⟨S256x2048, .bf16⟩
  | .local _ .vmem, ⟨16, _⟩ => ⟨S256x2048, .bf16⟩
  | .local _ .vmem, ⟨17, _⟩ => ⟨S256x2048, .bf16⟩
  | .local _ .vmem, ⟨18, _⟩ => ⟨S256x2048, .bf16⟩
  | .local _ .vmem, ⟨19, _⟩ => ⟨S256x2048, .bf16⟩
  | .local _ .vmem, ⟨20, _⟩ => ⟨S1x256, .f32⟩
  | .local _ .vmem, ⟨21, _⟩ => ⟨S1x256, .f32⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S1x256, .f32⟩
  | .local _ .vmem, ⟨27, _⟩ => ⟨S1x256, .f32⟩
  | .local _ .vmem, ⟨28, _⟩ => ⟨S512x256, .f32⟩
  | .local _ .vmem, ⟨29, _⟩ => ⟨S512x256, .f32⟩
  | .local _ .vmem, ⟨30, _⟩ => ⟨S512x256, .f32⟩
  | .local _ .vmem, ⟨31, _⟩ => ⟨S512x256, .f32⟩
  | .local _ .vmem, ⟨32, _⟩ => ⟨S512x256, .f32⟩
  | .local _ .vmem, ⟨33, _⟩ => ⟨S512x256, .f32⟩
  | .local _ .vmem, ⟨34, _⟩ => ⟨S512x2048, .bf16⟩
  | .local _ .vmem, ⟨35, _⟩ => ⟨S512x2048, .bf16⟩
  | .local _ .vmem, ⟨36, _⟩ => ⟨S1024x2048, .bf16⟩
  | .local _ .vmem, ⟨37, _⟩ => ⟨S1x1024, .f32⟩
  | .local _ .vmem, ⟨38, _⟩ => ⟨S512x1024, .f32⟩
  | .local _ .vmem, ⟨39, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14_0 : Ref sig .tc := ⟨.hbm, 31, rfl⟩
abbrev main_v14_1 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc1_stg0_0 : Ref sig .tc := ⟨.vmem, 34, rfl⟩
abbrev cc1_stg0_1 : Ref sig .tc := ⟨.vmem, 35, rfl⟩
abbrev cc1_stg1_0 : Ref sig .tc := ⟨.vmem, 36, rfl⟩
abbrev cc1_stg2_0 : Ref sig .tc := ⟨.vmem, 37, rfl⟩
abbrev cc1_stg3_0 : Ref sig .tc := ⟨.vmem, 38, rfl⟩
abbrev cc1_stg3_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33
abbrev cc1_sem0_0 : DmaSem sig := 34
abbrev cc1_sem0_1 : DmaSem sig := 35
abbrev cc1_sem1_0 : DmaSem sig := 36
abbrev cc1_sem2_0 : DmaSem sig := 37
abbrev cc1_sem3_0 : DmaSem sig := 38
abbrev cc1_sem3_1 : DmaSem sig := 39

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S256x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S1x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 2 → Memref sig .tc .vmem S1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S512x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1024x2048 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S2048_S1x2048 : S2048.ShapeCasts S1x2048
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  shapeCasts_S1024_S1x1024 : S1024.ShapeCasts S1x1024
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S256x1024_S512x256_1_1_0_0_n_n_wf : DotDims.WF S512x1024 S256x1024 S512x256 [1] [1] [0] [0] [] []
  dot_S512x2048_S256x2048_S512x256_1_1_0_0_n_n_wf : DotDims.WF S512x2048 S256x2048 S512x256 [1] [1] [0] [0] [] []
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S4096x2048.size a
  hwx0_1 : ∀ i : grid0.Coords, EltTy.bits .bf16 = 32 ∨ (Rect.block (s := S4096x2048) S512x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S2048x1024.size a
  hwx0_2 : ∀ i : grid0.Coords, EltTy.bits .bf16 = 32 ∨ (Rect.block (s := S2048x1024) S256x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S2048x1024.size a
  hwx0_3 : ∀ i : grid0.Coords, EltTy.bits .bf16 = 32 ∨ (Rect.block (s := S2048x1024) S256x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1024.size a ≤ S2048x1024.size a
  hwx0_4 : ∀ i : grid0.Coords, EltTy.bits .bf16 = 32 ∨ (Rect.block (s := S2048x1024) S256x1024.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S2048x1024.size a
  hwx0_5 : ∀ i : grid0.Coords, EltTy.bits .bf16 = 32 ∨ (Rect.block (s := S2048x1024) S256x1024.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S2048x2048.size a
  hwx0_6 : ∀ i : grid0.Coords, EltTy.bits .bf16 = 32 ∨ (Rect.block (s := S2048x2048) S256x2048.size (cc0_transform_6 i) (hinb0_6 i)).WholeWords (EltTy.packing .bf16)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x2048.size a ≤ S2048x2048.size a
  hwx0_7 : ∀ i : grid0.Coords, EltTy.bits .bf16 = 32 ∨ (Rect.block (s := S2048x2048) S256x2048.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S256x2048.size a ≤ S2048x2048.size a
  hwx0_8 : ∀ i : grid0.Coords, EltTy.bits .bf16 = 32 ∨ (Rect.block (s := S2048x2048) S256x2048.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S256x2048.size a ≤ S2048x2048.size a
  hwx0_9 : ∀ i : grid0.Coords, EltTy.bits .bf16 = 32 ∨ (Rect.block (s := S2048x2048) S256x2048.size (cc0_transform_9 i) (hinb0_9 i)).WholeWords (EltTy.packing .bf16)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x256.size a ≤ S1x2048.size a
  hwx0_10 : ∀ i : grid0.Coords, EltTy.bits .f32 = 32 ∨ (Rect.block (s := S1x2048) S1x256.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S1x256.size a ≤ S1x2048.size a
  hwx0_11 : ∀ i : grid0.Coords, EltTy.bits .f32 = 32 ∨ (Rect.block (s := S1x2048) S1x256.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x256.size a ≤ S1x2048.size a
  hwx0_12 : ∀ i : grid0.Coords, EltTy.bits .f32 = 32 ∨ (Rect.block (s := S1x2048) S1x256.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x256.size a ≤ S1x2048.size a
  hwx0_13 : ∀ i : grid0.Coords, EltTy.bits .f32 = 32 ∨ (Rect.block (s := S1x2048) S1x256.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S512x256.size a ≤ S4096x2048.size a
  hwx0_14 : ∀ i : grid0.Coords, EltTy.bits .f32 = 32 ∨ (Rect.block (s := S4096x2048) S512x256.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S512x256.size a ≤ S4096x2048.size a
  hwx0_15 : ∀ i : grid0.Coords, EltTy.bits .f32 = 32 ∨ (Rect.block (s := S4096x2048) S512x256.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S512x256.size a ≤ S4096x2048.size a
  hwx0_16 : ∀ i : grid0.Coords, EltTy.bits .f32 = 32 ∨ (Rect.block (s := S4096x2048) S512x256.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S4096x2048.size a
  hwx1_0 : ∀ i : grid1.Coords, EltTy.bits .bf16 = 32 ∨ (Rect.block (s := S4096x2048) S512x2048.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x2048.size a ≤ S1024x2048.size a
  hwx1_1 : ∀ i : grid1.Coords, EltTy.bits .bf16 = 32 ∨ (Rect.block (s := S1024x2048) S1024x2048.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1024.size a ≤ S4096x1024.size a
  hwx1_3 : ∀ i : grid1.Coords, EltTy.bits .f32 = 32 ∨ (Rect.block (s := S4096x1024) S512x1024.size (cc1_transform_3 i) (hinb1_3 i)).WholeWords (EltTy.packing .f32)

variable [Facts₀]

def dot_S512x1024_S256x1024_S512x256_1_1_0_0_n_n : DotDims S512x1024 S256x1024 S512x256 where
  lhsContracting := [1]
  rhsContracting := [1]
  lhsNonContracting := [0]
  rhsNonContracting := [0]
  lhsBatch := []
  rhsBatch := []
  wf := dot_S512x1024_S256x1024_S512x256_1_1_0_0_n_n_wf
def dot_S512x2048_S256x2048_S512x256_1_1_0_0_n_n : DotDims S512x2048 S256x2048 S512x256 where
  lhsContracting := [1]
  rhsContracting := [1]
  lhsNonContracting := [0]
  rhsNonContracting := [0]
  lhsBatch := []
  rhsBatch := []
  wf := dot_S512x2048_S256x2048_S512x256_1_1_0_0_n_n_wf
def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S256x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S256x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v7) S256x2048.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v8) S256x2048.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v9) S256x2048.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v10) S1x256.size cc0_transform_10 reads0_10 false false 2 stage0_10 sem0_10
    hrank0 hreads0_10 hinb0_10 nbuf0_10 (Memref.isWhole_whole _) hwx0_10 hstage0_10

abbrev win0_11 : Pipeline.Window sig grid0 :=
  Pipeline.Window.ofSpec (Memref.whole main_v11) S1x256.size cc0_transform_11 reads0_11 false false 2 stage0_11 sem0_11
    hrank0 hreads0_11 hinb0_11 nbuf0_11 (Memref.isWhole_whole _) hwx0_11 hstage0_11

abbrev win0_12 : Pipeline.Window sig grid0 :=
  Pipeline.Window.ofSpec (Memref.whole main_v12) S1x256.size cc0_transform_12 reads0_12 false false 2 stage0_12 sem0_12
    hrank0 hreads0_12 hinb0_12 nbuf0_12 (Memref.isWhole_whole _) hwx0_12 hstage0_12

abbrev win0_13 : Pipeline.Window sig grid0 :=
  Pipeline.Window.ofSpec (Memref.whole main_v13) S1x256.size cc0_transform_13 reads0_13 false false 2 stage0_13 sem0_13
    hrank0 hreads0_13 hinb0_13 nbuf0_13 (Memref.isWhole_whole _) hwx0_13 hstage0_13

abbrev win0_14 : Pipeline.Window sig grid0 :=
  Pipeline.Window.ofSpec (Memref.whole main_arg2) S512x256.size cc0_transform_14 reads0_14 false false 2 stage0_14 sem0_14
    hrank0 hreads0_14 hinb0_14 nbuf0_14 (Memref.isWhole_whole _) hwx0_14 hstage0_14

abbrev win0_15 : Pipeline.Window sig grid0 :=
  Pipeline.Window.ofSpec (Memref.whole main_v14_0) S512x256.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v14_1) S512x256.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v15) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S1024x2048.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v17) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v18) S512x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S4096x1024 : Shape := ⟨2, ![4096, 1024]⟩
abbrev S4096x2048 : Shape := ⟨2, ![4096, 2048]⟩
abbrev S2048x1024 : Shape := ⟨2, ![2048, 1024]⟩
abbrev S2048 : Shape := ⟨1, ![2048]⟩
abbrev S2048x2048 : Shape := ⟨2, ![2048, 2048]⟩
abbrev S1024x2048 : Shape := ⟨2, ![1024, 2048]⟩
abbrev S1024 : Shape := ⟨1, ![1024]⟩
abbrev S8192x1024 : Shape := ⟨2, ![8192, 1024]⟩
abbrev S8192x2048 : Shape := ⟨2, ![8192, 2048]⟩
abbrev S8192 : Shape := ⟨1, ![8192]⟩
abbrev S1024x8192 : Shape := ⟨2, ![1024, 8192]⟩
abbrev S4096x8192 : Shape := ⟨2, ![4096, 8192]⟩
abbrev S2048x8192 : Shape := ⟨2, ![2048, 8192]⟩
abbrev S1x8192 : Shape := ⟨2, ![1, 8192]⟩
abbrev S_ : Shape := ⟨0, ![]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S4096x2048, .f32⟩
  | .hbm, ⟨3, _⟩ => ⟨S2048x1024, .f32⟩
  | .hbm, ⟨4, _⟩ => ⟨S2048, .f32⟩
  | .hbm, ⟨5, _⟩ => ⟨S2048x2048, .f32⟩
  | .hbm, ⟨6, _⟩ => ⟨S2048x1024, .f32⟩
  | .hbm, ⟨7, _⟩ => ⟨S2048, .f32⟩
  | .hbm, ⟨8, _⟩ => ⟨S2048x2048, .f32⟩
  | .hbm, ⟨9, _⟩ => ⟨S2048x1024, .f32⟩
  | .hbm, ⟨10, _⟩ => ⟨S2048, .f32⟩
  | .hbm, ⟨11, _⟩ => ⟨S2048x2048, .f32⟩
  | .hbm, ⟨12, _⟩ => ⟨S2048x1024, .f32⟩
  | .hbm, ⟨13, _⟩ => ⟨S2048, .f32⟩
  | .hbm, ⟨14, _⟩ => ⟨S2048x2048, .f32⟩
  | .hbm, ⟨15, _⟩ => ⟨S1024x2048, .f32⟩
  | .hbm, ⟨16, _⟩ => ⟨S1024, .f32⟩
  | .hbm, ⟨17, _⟩ => ⟨S8192x1024, .f32⟩
  | .hbm, ⟨18, _⟩ => ⟨S8192x2048, .f32⟩
  | .hbm, ⟨19, _⟩ => ⟨S8192, .f32⟩
  | .hbm, ⟨20, _⟩ => ⟨S1024x8192, .f32⟩
  | .hbm, ⟨21, _⟩ => ⟨S4096x8192, .f32⟩
  | .hbm, ⟨22, _⟩ => ⟨S2048x8192, .f32⟩
  | .hbm, ⟨23, _⟩ => ⟨S4096x8192, .f32⟩
  | .hbm, ⟨24, _⟩ => ⟨S4096x8192, .f32⟩
  | .hbm, ⟨25, _⟩ => ⟨S1x8192, .f32⟩
  | .hbm, ⟨26, _⟩ => ⟨S4096x8192, .f32⟩
  | .hbm, ⟨27, _⟩ => ⟨S4096x8192, .f32⟩
  | .hbm, ⟨28, _⟩ => ⟨S4096x2048, .f32⟩
  | .hbm, ⟨29, _⟩ => ⟨S4096x2048, .f32⟩
  | .hbm, ⟨30, _⟩ => ⟨S4096x2048, .f32⟩
  | .hbm, ⟨31, _⟩ => ⟨S4096x2048, .f32⟩
  | .hbm, ⟨32, _⟩ => ⟨S4096x2048, .f32⟩
  | .hbm, ⟨33, _⟩ => ⟨S4096x2048, .f32⟩
  | .hbm, ⟨34, _⟩ => ⟨S_, .f32⟩
  | .hbm, ⟨35, _⟩ => ⟨S4096x2048, .f32⟩
  | .hbm, ⟨36, _⟩ => ⟨S4096x2048, .f32⟩
  | .hbm, ⟨37, _⟩ => ⟨S_, .f32⟩
  | .hbm, ⟨38, _⟩ => ⟨S4096x2048, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S_, .f32⟩
  | .hbm, ⟨43, _⟩ => ⟨S4096x2048, .f32⟩
  | .hbm, ⟨44, _⟩ => ⟨S4096x2048, .f32⟩
  | .hbm, ⟨45, _⟩ => ⟨S_, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S4096x2048, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S2048x1024, .f32⟩
  | .hbm, ⟨63, _⟩ => ⟨S4096x1024, .f32⟩
  | .hbm, ⟨64, _⟩ => ⟨S1x1024, .f32⟩
  | .hbm, ⟨65, _⟩ => ⟨S4096x1024, .f32⟩
  | .hbm, ⟨66, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_cst : Ref sig .tc := ⟨.hbm, 34, rfl⟩
abbrev main_v17 : Ref sig .tc := ⟨.hbm, 35, rfl⟩
abbrev main_v18 : Ref sig .tc := ⟨.hbm, 36, rfl⟩
abbrev main_cst_0 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_1 : Ref sig .tc := ⟨.hbm, 42, rfl⟩
abbrev main_v23 : Ref sig .tc := ⟨.hbm, 43, rfl⟩
abbrev main_v24 : Ref sig .tc := ⟨.hbm, 44, rfl⟩
abbrev main_cst_2 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_3 : Ref sig .tc := ⟨.hbm, 51, rfl⟩
abbrev main_v30 : Ref sig .tc := ⟨.hbm, 52, rfl⟩
abbrev main_v31 : Ref sig .tc := ⟨.hbm, 53, rfl⟩
abbrev main_cst_4 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩

abbrev nD : Nat := 1
abbrev τ : Topo := Topo.v7x

variable {F : FTy → Type} [FloatOps F]

class Facts₀ : Prop where
  concatenates_S2048x1024_S2048x1024_S2048x1024_S2048x1024_S8192x1024_d0 : Shape.Concatenates [S2048x1024, S2048x1024, S2048x1024, S2048x1024] S8192x1024 0
  concatenates_S2048x2048_S2048x2048_S2048x2048_S2048x2048_S8192x2048_d0 : Shape.Concatenates [S2048x2048, S2048x2048, S2048x2048, S2048x2048] S8192x2048 0
  concatenates_S2048_S2048_S2048_S2048_S8192_d0 : Shape.Concatenates [S2048, S2048, S2048, S2048] S8192 0
  transposes_S8192x1024_S1024x8192_1_0 : S8192x1024.Transposes [1, 0] S1024x8192
  transposes_S8192x2048_S2048x8192_1_0 : S8192x2048.Transposes [1, 0] S2048x8192
  bcast_S8192_S1x8192_1 : S8192.BroadcastsInDim S1x8192 (![1] : Fin 1 → Fin S1x8192.rank)
  bcast_S1x8192_S4096x8192_0_1 : S1x8192.BroadcastsInDim S4096x8192 (![0, 1] : Fin 2 → Fin S4096x8192.rank)
  slices_S4096x8192_S4096x2048_0_0 : S4096x8192.Slices ![0, 0] S4096x2048
  slices_S4096x8192_S4096x2048_0_2048 : S4096x8192.Slices ![0, 2048] S4096x2048
  slices_S4096x8192_S4096x2048_0_4096 : S4096x8192.Slices ![0, 4096] S4096x2048
  slices_S4096x8192_S4096x2048_0_6144 : S4096x8192.Slices ![0, 6144] S4096x2048
  bcast_S_S4096x2048 : S_.BroadcastsInDim S4096x2048 (![] : Fin 0 → Fin S4096x2048.rank)
  transposes_S1024x2048_S2048x1024_1_0 : S1024x2048.Transposes [1, 0] S2048x1024
  bcast_S1024_S1x1024_1 : S1024.BroadcastsInDim S1x1024 (![1] : Fin 1 → Fin S1x1024.rank)
  bcast_S1x1024_S4096x1024_0_1 : S1x1024.BroadcastsInDim S4096x1024 (![0, 1] : Fin 2 → Fin S4096x1024.rank)
  dot_S4096x1024_S1024x8192_S4096x8192_1_0_0_1_n_n_wf : DotDims.WF S4096x1024 S1024x8192 S4096x8192 [1] [0] [0] [1] [] []
  dot_S4096x2048_S2048x8192_S4096x8192_1_0_0_1_n_n_wf : DotDims.WF S4096x2048 S2048x8192 S4096x8192 [1] [0] [0] [1] [] []
  dot_S4096x2048_S2048x1024_S4096x1024_1_0_0_1_n_n_wf : DotDims.WF S4096x2048 S2048x1024 S4096x1024 [1] [0] [0] [1] [] []

variable [Facts₀]

def dot_S4096x1024_S1024x8192_S4096x8192_1_0_0_1_n_n : DotDims S4096x1024 S1024x8192 S4096x8192 where
  lhsContracting := [1]
  rhsContracting := [0]
  lhsNonContracting := [0]
  rhsNonContracting := [1]
  lhsBatch := []
  rhsBatch := []
  wf := dot_S4096x1024_S1024x8192_S4096x8192_1_0_0_1_n_n_wf
def dot_S4096x2048_S2048x8192_S4096x8192_1_0_0_1_n_n : DotDims S4096x2048 S2048x8192 S4096x8192 where
  lhsContracting := [1]
  rhsContracting := [0]
  lhsNonContracting := [0]
  rhsNonContracting := [1]
  lhsBatch := []
  rhsBatch := []
  wf := dot_S4096x2048_S2048x8192_S4096x8192_1_0_0_1_n_n_wf
def dot_S4096x2048_S2048x1024_S4096x1024_1_0_0_1_n_n : DotDims S4096x2048 S2048x1024 S4096x1024 where
  lhsContracting := [1]
  rhsContracting := [0]
  lhsNonContracting := [0]
  rhsNonContracting := [1]
  lhsBatch := []
  rhsBatch := []
  wf := dot_S4096x2048_S2048x1024_S4096x1024_1_0_0_1_n_n_wf

class Facts : Prop extends Facts₀ where

variable [Facts]
-- ==== Proof.Spec.lean ====
/-
  The single LSTM step both programs compute, as functions of the seventeen argument arrays over the extended reals.

  For a batch row r and a hidden unit q, each of the four gates (input, forget, candidate, output) has the
  pre-activation
      g(r, q) = (sum over l < 1024 of x(r, l) * Wx(q, l)  +  sum over l < 2048 of h(r, l) * Wh(q, l)) + b(q),
  with its own pair of weight matrices and its own bias.  With sigma the logistic function,
      newCell(r, q)   = sigma(g_f) * cell(r, q) + sigma(g_i) * tanh(g_c),
      newHidden(r, q) = sigma(g_o) * tanh(newCell(r, q)),
      output(r, o)    = (sum over l < 2048 of newHidden(r, l) * Why(o, l)) + bhy(o).
  Every sum runs over one row of a weight matrix against one row of an activation matrix, in the index order of the
  contracted axis, so no rearrangement of sums is involved and nothing here depends on the entries being finite.
-/
import Idealize.ShloMosaic.PureOps.Ideal
import Idealize.ShloMosaic.Lib.ValueIdx

noncomputable section

open Idealize.ShloMosaic Idealize.ShloMosaic.ValueIdx
open scoped BigOperators

namespace Cert.LstmStep

/-- A matrix with `a` rows and `b` columns of extended reals. -/
abbrev Mat (a b : Nat) : Type := (⟨2, ![a, b]⟩ : Shape).Idx → EReal
/-- A vector with `a` entries of extended reals. -/
abbrev Vect (a : Nat) : Type := (⟨1, ![a]⟩ : Shape).Idx → EReal

/-- A pre-activation from its two row products and its bias entry: `(sx + sh) + b`. -/
def pre (sx sh b : EReal) : EReal := (sx + sh) + b

/-- The new cell entry from the input, forget and candidate pre-activations and the old cell entry:
    `sigma(gf) * c + sigma(gi) * tanh(gc)`. -/
def cellOf (gi gf gc c : EReal) : EReal := Ideal.logistic gf * c + Ideal.logistic gi * Ideal.tanh gc

/-- The new hidden entry: `sigma(go) * tanh(new cell entry)`. -/
def hiddenOf (gi gf gc go c : EReal) : EReal := Ideal.logistic go * Ideal.tanh (cellOf gi gf gc c)

/-- The seventeen argument arrays, named by their role. -/
structure Inputs where
  x : Mat 4096 1024
  h : Mat 4096 2048
  cell : Mat 4096 2048
  Wxi : Mat 2048 1024
  bi : Vect 2048
  Whi : Mat 2048 2048
  Wxf : Mat 2048 1024
  bf : Vect 2048
  Whf : Mat 2048 2048
  Wxc : Mat 2048 1024
  bc : Vect 2048
  Whc : Mat 2048 2048
  Wxo : Mat 2048 1024
  bo : Vect 2048
  Who : Mat 2048 2048
  Why : Mat 1024 2048
  bhy : Vect 1024

/-- One gate's pre-activation at batch row `r` and hidden unit `q`: row `r` of `x` against row `q` of `Wx`, row `r` of `h`
    against row `q` of `Wh`, plus entry `q` of the bias. -/
def gatePre (x : Mat 4096 1024) (h : Mat 4096 2048) (Wx : Mat 2048 1024) (Wh : Mat 2048 2048) (b : Vect 2048)
    (r : Fin 4096) (q : Fin 2048) : EReal :=
  pre (∑ l : Fin 1024, x (ix2 r l) * Wx (ix2 q l)) (∑ l : Fin 2048, h (ix2 r l) * Wh (ix2 q l)) (b (ix1 q))

/-- The new cell state. -/
def newCell (A : Inputs) : Mat 4096 2048 := fun j =>
  cellOf (gatePre A.x A.h A.Wxi A.Whi A.bi (j 0) (j 1)) (gatePre A.x A.h A.Wxf A.Whf A.bf (j 0) (j 1))
    (gatePre A.x A.h A.Wxc A.Whc A.bc (j 0) (j 1)) (A.cell j)

/-- The new hidden state. -/
def newHidden (A : Inputs) : Mat 4096 2048 := fun j =>
  hiddenOf (gatePre A.x A.h A.Wxi A.Whi A.bi (j 0) (j 1)) (gatePre A.x A.h A.Wxf A.Whf A.bf (j 0) (j 1))
    (gatePre A.x A.h A.Wxc A.Whc A.bc (j 0) (j 1)) (gatePre A.x A.h A.Wxo A.Who A.bo (j 0) (j 1)) (A.cell j)

/-- The output projection of a hidden state `nh`: row `r` of `nh` against row `o` of `Why`, plus entry `o` of the bias. -/
def project (nh : Mat 4096 2048) (Why : Mat 1024 2048) (bhy : Vect 1024) : Mat 4096 1024 := fun j =>
  (∑ l : Fin 2048, nh (ix2 (j 0) l) * Why (ix2 (j 1) l)) + bhy (ix1 (j 1))

/-- The step's output. -/
def output (A : Inputs) : Mat 4096 1024 := project (newHidden A) A.Why A.bhy

end Cert.LstmStep

end
-- ==== Proof.KernelRun.lean ====
/-
  The idealized kernel's run, with its final memory named.

  @main is four segments: the host operations that change the arguments' float format and give each bias a leading
  axis of size one; the first region (new hidden and new cell state); the host operations that prepare the second
  region's operands from the first region's result; the second region (the output projection).  The contents of the
  unscoped buffers at each boundary are a fold through these segments from the launch memory, ending at the last
  boundary's contents.  Here the run is stated with EVERY unscoped buffer at those last contents, and the three result
  arrays are then walked back through the fold: the output is what the second region's write-backs leave in its
  output window's array; new hidden and new cell are what the first region's write-backs leave in its two output
  windows' arrays, which nothing afterwards writes.
-/
import proofs.«105698_j43817256354365_1_alg».proof.Proof.Gen.KernelIdeal.Frame
import proofs.«105698_j43817256354365_1_alg».proof.Proof.Spec
import Idealize.ShloMosaic.PureOps.Ideal
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.StepRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates without a fault, and in every final state each unscoped buffer
    of each core holds the last boundary's contents. -/
theorem run_contents : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-! ## The three results, walked back through the boundaries -/

/-- The output array ends at what the second region's write-backs leave in its output window's array. -/
theorem output_contents (c : Dev nD) : W4 m ρ c (Proc.devRef .tc main_v18) = (dat1 (V3 m ρ) c).arrAt 3 cfg1.N :=
  W4_arr m ρ c 3

/-- The new hidden state ends at what the first region's write-backs leave in its first output window's array: the
    second region does not have it among its arrays, and the host operations in between only read it. -/
theorem hidden_contents (c : Dev nD) : W4 m ρ c (Proc.devRef .tc main_v14_0) = (dat0 (V1 m ρ) c).arrAt 15 cfg0.N :=
  calc W4 m ρ c (Proc.devRef .tc main_v14_0)
    _ = W3 m ρ c (Proc.devRef .tc main_v14_0) := W4_of_ne m ρ c main_v14_0 (by decide)
    _ = W2 m ρ c (Proc.devRef .tc main_v14_0) := StableHlo.after_of_forall_not_mem (b := Proc.devRef .tc main_v14_0) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = (dat0 (V1 m ρ) c).arrAt 15 cfg0.N := W2_arr m ρ c 15

/-- The new cell state ends at what the first region's write-backs leave in its second output window's array. -/
theorem cell_contents (c : Dev nD) : W4 m ρ c (Proc.devRef .tc main_v14_1) = (dat0 (V1 m ρ) c).arrAt 16 cfg0.N :=
  calc W4 m ρ c (Proc.devRef .tc main_v14_1)
    _ = W3 m ρ c (Proc.devRef .tc main_v14_1) := W4_of_ne m ρ c main_v14_1 (by decide)
    _ = W2 m ρ c (Proc.devRef .tc main_v14_1) := StableHlo.after_of_forall_not_mem (b := Proc.devRef .tc main_v14_1) _ _ (List.forall_iff_forall_mem.mp (by
          simp only [hostOps1, List.Forall, StableHlo.unary_writes, StableHlo.reshape_writes, Finset.mem_singleton]
          repeat' apply And.intro
          all_goals exact StableHlo.devRef_ne_of_ne (by decide)))
    _ = (dat0 (V1 m ρ) c).arrAt 16 cfg0.N := W2_arr m ρ c 16

end Cert.KernelIdeal.StepRun

/-! ## What each region finds in its windows' arrays, at the ideal instance

A change of float format is the identity on the extended reals, so the first region's matrix operands are the
argument arrays themselves; each bias with a leading axis of size one reads, at (0, q), the bias at q; the old cell
state is passed as it is.  The second region's left operand is the first region's new hidden state, its right operand
the projection matrix, its bias the projection bias with a leading axis of size one. -/

namespace Cert.KernelIdeal.StepEntry

open Cert.KernelIdeal Cert.KernelIdeal.Gen
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ) (ρ : Dev nD → PrngReg)

/-- The seventeen argument arrays of core `c` at launch, by role. -/
def inputsOf (c : Dev nD) : Cert.LstmStep.Inputs where
  x := m ((c : Thread nD τ).loc main_arg0)
  h := m ((c : Thread nD τ).loc main_arg1)
  cell := m ((c : Thread nD τ).loc main_arg2)
  Wxi := m ((c : Thread nD τ).loc main_arg3)
  bi := m ((c : Thread nD τ).loc main_arg4)
  Whi := m ((c : Thread nD τ).loc main_arg5)
  Wxf := m ((c : Thread nD τ).loc main_arg6)
  bf := m ((c : Thread nD τ).loc main_arg7)
  Whf := m ((c : Thread nD τ).loc main_arg8)
  Wxc := m ((c : Thread nD τ).loc main_arg9)
  bc := m ((c : Thread nD τ).loc main_arg10)
  Whc := m ((c : Thread nD τ).loc main_arg11)
  Wxo := m ((c : Thread nD τ).loc main_arg12)
  bo := m ((c : Thread nD τ).loc main_arg13)
  Who := m ((c : Thread nD τ).loc main_arg14)
  Why := m ((c : Thread nD τ).loc main_arg15)
  bhy := m ((c : Thread nD τ).loc main_arg16)

/-- The first region's batch operand is `x`. -/
theorem entry_x (c : Dev nD) : (V1 m ρ c main_v0 : S4096x1024.Idx → EReal) = m ((c : Thread nD τ).loc main_arg0) := by
  show StableHlo.after hostOps0 (W0 m ρ c) (Proc.devRef .tc main_v0) = _
  after_results
  rfl

/-- Its recurrent operand is the old hidden state. -/
theorem entry_h (c : Dev nD) : (V1 m ρ c main_v1 : S4096x2048.Idx → EReal) = m ((c : Thread nD τ).loc main_arg1) := by
  show StableHlo.after hostOps0 (W0 m ρ c) (Proc.devRef .tc main_v1) = _
  after_results
  rfl

/-- The input gate's input weights. -/
theorem entry_Wxi (c : Dev nD) : (V1 m ρ c main_v2 : S2048x1024.Idx → EReal) = m ((c : Thread nD τ).loc main_arg3) := by
  show StableHlo.after hostOps0 (W0 m ρ c) (Proc.devRef .tc main_v2) = _
  after_results
  rfl

/-- The forget gate's input weights. -/
theorem entry_Wxf (c : Dev nD) : (V1 m ρ c main_v3 : S2048x1024.Idx → EReal) = m ((c : Thread nD τ).loc main_arg6) := by
  show StableHlo.after hostOps0 (W0 m ρ c) (Proc.devRef .tc main_v3) = _
  after_results
  rfl

/-- The candidate's input weights. -/
theorem entry_Wxc (c : Dev nD) : (V1 m ρ c main_v4 : S2048x1024.Idx → EReal) = m ((c : Thread nD τ).loc main_arg9) := by
  show StableHlo.after hostOps0 (W0 m ρ c) (Proc.devRef .tc main_v4) = _
  after_results
  rfl

/-- The output gate's input weights. -/
theorem entry_Wxo (c : Dev nD) : (V1 m ρ c main_v5 : S2048x1024.Idx → EReal) = m ((c : Thread nD τ).loc main_arg12) := by
  show StableHlo.after hostOps0 (W0 m ρ c) (Proc.devRef .tc main_v5) = _
  after_results
  rfl

/-- The input gate's recurrent weights. -/
theorem entry_Whi (c : Dev nD) : (V1 m ρ c main_v6 : S2048x2048.Idx → EReal) = m ((c : Thread nD τ).loc main_arg5) := by
  show StableHlo.after hostOps0 (W0 m ρ c) (Proc.devRef .tc main_v6) = _
  after_results
  rfl

/-- The forget gate's recurrent weights. -/
theorem entry_Whf (c : Dev nD) : (V1 m ρ c main_v7 : S2048x2048.Idx → EReal) = m ((c : Thread nD τ).loc main_arg8) := by
  show StableHlo.after hostOps0 (W0 m ρ c) (Proc.devRef .tc main_v7) = _
  after_results
  rfl

/-- The candidate's recurrent weights. -/
theorem entry_Whc (c : Dev nD) : (V1 m ρ c main_v8 : S2048x2048.Idx → EReal) = m ((c : Thread nD τ).loc main_arg11) := by
  show StableHlo.after hostOps0 (W0 m ρ c) (Proc.devRef .tc main_v8) = _
  after_results
  rfl

/-- The output gate's recurrent weights. -/
theorem entry_Who (c : Dev nD) : (V1 m ρ c main_v9 : S2048x2048.Idx → EReal) = m ((c : Thread nD τ).loc main_arg14) := by
  show StableHlo.after hostOps0 (W0 m ρ c) (Proc.devRef .tc main_v9) = _
  after_results
  rfl

/-- The input gate's bias as one row. -/
theorem entry_bi (c : Dev nD) (q : Fin 2048) :
    (V1 m ρ c main_v10 : S1x2048.Idx → EReal) (ix2 0 q) = (m ((c : Thread nD τ).loc main_arg4) : S2048.Idx → EReal) (ix1 q) := by
  show StableHlo.after hostOps0 (W0 m ρ c) (Proc.devRef .tc main_v10) _ = _
  after_results
  exact shapeCast_a_1a_apply _ _ 0 q

/-- The forget gate's bias as one row. -/
theorem entry_bf (c : Dev nD) (q : Fin 2048) :
    (V1 m ρ c main_v11 : S1x2048.Idx → EReal) (ix2 0 q) = (m ((c : Thread nD τ).loc main_arg7) : S2048.Idx → EReal) (ix1 q) := by
  show StableHlo.after hostOps0 (W0 m ρ c) (Proc.devRef .tc main_v11) _ = _
  after_results
  exact shapeCast_a_1a_apply _ _ 0 q

/-- The candidate's bias as one row. -/
theorem entry_bc (c : Dev nD) (q : Fin 2048) :
    (V1 m ρ c main_v12 : S1x2048.Idx → EReal) (ix2 0 q) = (m ((c : Thread nD τ).loc main_arg10) : S2048.Idx → EReal) (ix1 q) := by
  show StableHlo.after hostOps0 (W0 m ρ c) (Proc.devRef .tc main_v12) _ = _
  after_results
  exact shapeCast_a_1a_apply _ _ 0 q

/-- The output gate's bias as one row. -/
theorem entry_bo (c : Dev nD) (q : Fin 2048) :
    (V1 m ρ c main_v13 : S1x2048.Idx → EReal) (ix2 0 q) = (m ((c : Thread nD τ).loc main_arg13) : S2048.Idx → EReal) (ix1 q) := by
  show StableHlo.after hostOps0 (W0 m ρ c) (Proc.devRef .tc main_v13) _ = _
  after_results
  exact shapeCast_a_1a_apply _ _ 0 q

/-- The old cell state is passed to the first region as it is. -/
theorem entry_cell (c : Dev nD) : (V1 m ρ c main_arg2 : S4096x2048.Idx → EReal) = m ((c : Thread nD τ).loc main_arg2) := by
  show StableHlo.after hostOps0 (W0 m ρ c) (Proc.devRef .tc main_arg2) = _
  after_results

/-- The second region's left operand is the array the first region's write-backs left in its first output window. -/
theorem proj_entry_hidden (c : Dev nD) :
    (V3 m ρ c main_v15 : S4096x2048.Idx → EReal) = (dat0 (V1 m ρ) c).arrAt 15 cfg0.N := by
  show StableHlo.after hostOps1 (W2 m ρ c) (Proc.devRef .tc main_v15) = _
  after_results
  exact W2_arr m ρ c 15

/-- Its right operand is the projection matrix: no earlier segment writes that argument. -/
theorem proj_entry_Why (c : Dev nD) : (V3 m ρ c main_v16 : S1024x2048.Idx → EReal) = m ((c : Thread nD τ).loc main_arg15) := by
  show StableHlo.after hostOps1 (W2 m ρ c) (Proc.devRef .tc main_v16) = _
  after_results
  show W2 m ρ c (Proc.devRef .tc main_arg15) = _
  rw [W2_of_ne m ρ c main_arg15 (by decide)]
  show StableHlo.after hostOps0 (W0 m ρ c) (Proc.devRef .tc main_arg15) = _
  after_results

/-- Its bias row reads, at (0, o), the projection bias at o. -/
theorem proj_entry_bias (c : Dev nD) (o : Fin 1024) :
    (V3 m ρ c main_v17 : S1x1024.Idx → EReal) (ix2 0 o) = (m ((c : Thread nD τ).loc main_arg16) : S1024.Idx → EReal) (ix1 o) := by
  show StableHlo.after hostOps1 (W2 m ρ c) (Proc.devRef .tc main_v17) _ = _
  after_results
  refine (shapeCast_a_1a_apply _ _ 0 o).trans ?_
  show W2 m ρ c (Proc.devRef .tc main_arg16) _ = _
  rw [W2_of_ne m ρ c main_arg16 (by decide)]
  show StableHlo.after hostOps0 (W0 m ρ c) (Proc.devRef .tc main_arg16) _ = _
  after_results

end Cert.KernelIdeal.StepEntry

end
-- ==== Proof.CellBody.lean ====
/-
  The first region's body, read at one entry of its two output blocks.

  At a grid point the body holds fifteen blocks: 512 rows of x ([512, 1024]) and of h ([512, 2048]); 256 rows of each of
  the four gates' Wx ([256, 1024]) and Wh ([256, 2048]); the matching 256 entries of each gate's bias ([1, 256]); and the
  [512, 256] block of the old cell state.  For an entry (p, s) of the [512, 256] output blocks, each gate's
  pre-activation is
      (sum over l < 1024 of x(p, l) * Wx(s, l)  +  sum over l < 2048 of h(p, l) * Wh(s, l))  +  b(0, s):
  each product contracts the second axis of both operands, so row p of the activations meets row s of the weights, in
  the order of the contracted axis, and the bias block's single row is repeated down the 512 rows.  The new-cell block
  is sigma(f) * cell + sigma(i) * tanh(c) and the new-hidden block is sigma(o) * tanh(new cell), entry by entry.  These
  are the specification's `cellOf` and `hiddenOf` at the block's own pre-activations (`blockPre`); nothing is
  rearranged, so nothing depends on the entries being finite.
-/
import proofs.«105698_j43817256354365_1_alg».proof.Proof.Gen.KernelIdeal.Frame
import proofs.«105698_j43817256354365_1_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.CellBody

open Cert.KernelIdeal Cert.KernelIdeal.Gen Cert.LstmStep
open Idealize.ShloMosaic Idealize.ShloMosaic.ValueIdx
open scoped BigOperators

/-! ## The product of a [512, 1024] block with a [256, 1024] block, both contracted on their second axis -/

/-- The left operand is read at the output's row … -/
theorem lhs1024_row (j : S512x256.Idx) (q : dot_S512x1024_S256x1024_S512x256_1_1_0_0_n_n.contr.Idx) : (dot_S512x1024_S256x1024_S512x256_1_1_0_0_n_n.lhsIdx j q 0).val = (j 0).val := by
  unfold DotDims.lhsIdx
  rw [dif_neg (show ¬(0 : Fin S512x1024.rank) ∈ dot_S512x1024_S256x1024_S512x256_1_1_0_0_n_n.lhsBatch by decide), dif_pos (show (0 : Fin S512x1024.rank) ∈ dot_S512x1024_S256x1024_S512x256_1_1_0_0_n_n.lhsNonContracting by decide)]
  rfl
/-- … and at the contraction index on its second axis. -/
theorem lhs1024_col (j : S512x256.Idx) (q : dot_S512x1024_S256x1024_S512x256_1_1_0_0_n_n.contr.Idx) : (dot_S512x1024_S256x1024_S512x256_1_1_0_0_n_n.lhsIdx j q 1).val = (q ⟨0, by decide⟩).val :=
  dot_S512x1024_S256x1024_S512x256_1_1_0_0_n_n.lhsIdx_val_of_single rfl j q
/-- The right operand is read at the row the output's column names … -/
theorem rhs1024_row (j : S512x256.Idx) (q : dot_S512x1024_S256x1024_S512x256_1_1_0_0_n_n.contr.Idx) : (dot_S512x1024_S256x1024_S512x256_1_1_0_0_n_n.rhsIdx j q 0).val = (j 1).val := by
  unfold DotDims.rhsIdx
  rw [dif_neg (show ¬(0 : Fin S256x1024.rank) ∈ dot_S512x1024_S256x1024_S512x256_1_1_0_0_n_n.rhsBatch by decide), dif_pos (show (0 : Fin S256x1024.rank) ∈ dot_S512x1024_S256x1024_S512x256_1_1_0_0_n_n.rhsNonContracting by decide)]
  rfl
/-- … and at the contraction index on its second axis. -/
theorem rhs1024_col (j : S512x256.Idx) (q : dot_S512x1024_S256x1024_S512x256_1_1_0_0_n_n.contr.Idx) : (dot_S512x1024_S256x1024_S512x256_1_1_0_0_n_n.rhsIdx j q 1).val = (q ⟨0, by decide⟩).val :=
  dot_S512x1024_S256x1024_S512x256_1_1_0_0_n_n.rhsIdx_val_of_single rfl j q

/-- Entry `(p, s)` of the product into the zero block: row `p` of the left operand against row `s` of the right one,
    the sum over `l < 1024` of `a (p, l) * w (s, l)`, in the order of the contracted axis. -/
theorem matmul1024_apply (a : FVec Ideal S512x1024 .bf16) (w : FVec Ideal S256x1024 .bf16) (p : Fin 512) (s : Fin 256) :
    matmul dot_S512x1024_S256x1024_S512x256_1_1_0_0_n_n none a w (constant (F := Ideal) S512x256 .f32 0x00000000#32) (ix2 p s)
      = ∑ l : Fin 1024, a (ix2 p l) * w (ix2 s l) := by
  simp only [matmul]
  rw [Ideal.matmul_constant_zero_apply, ← Equiv.sum_comp (contrEquiv1 dot_S512x1024_S256x1024_S512x256_1_1_0_0_n_n 1024 rfl rfl).symm]
  refine Finset.sum_congr rfl fun k _ => ?_
  have hk := contrEquiv1_symm_val dot_S512x1024_S256x1024_S512x256_1_1_0_0_n_n 1024 rfl rfl k
  have el : dot_S512x1024_S256x1024_S512x256_1_1_0_0_n_n.lhsIdx (ix2 p s) ((contrEquiv1 dot_S512x1024_S256x1024_S512x256_1_1_0_0_n_n 1024 rfl rfl).symm k) = ix2 p k := funext fun c => Fin.ext (by
    match c with
    | ⟨0, _⟩ => exact lhs1024_row _ _
    | ⟨1, _⟩ => exact (lhs1024_col _ _).trans hk)
  have er : dot_S512x1024_S256x1024_S512x256_1_1_0_0_n_n.rhsIdx (ix2 p s) ((contrEquiv1 dot_S512x1024_S256x1024_S512x256_1_1_0_0_n_n 1024 rfl rfl).symm k) = ix2 s k := funext fun c => Fin.ext (by
    match c with
    | ⟨0, _⟩ => exact rhs1024_row _ _
    | ⟨1, _⟩ => exact (rhs1024_col _ _).trans hk)
  rw [el, er]

/-! ## The product of a [512, 2048] block with a [256, 2048] block, both contracted on their second axis -/

/-- The left operand is read at the output's row … -/
theorem lhs2048_row (j : S512x256.Idx) (q : dot_S512x2048_S256x2048_S512x256_1_1_0_0_n_n.contr.Idx) : (dot_S512x2048_S256x2048_S512x256_1_1_0_0_n_n.lhsIdx j q 0).val = (j 0).val := by
  unfold DotDims.lhsIdx
  rw [dif_neg (show ¬(0 : Fin S512x2048.rank) ∈ dot_S512x2048_S256x2048_S512x256_1_1_0_0_n_n.lhsBatch by decide), dif_pos (show (0 : Fin S512x2048.rank) ∈ dot_S512x2048_S256x2048_S512x256_1_1_0_0_n_n.lhsNonContracting by decide)]
  rfl
/-- … and at the contraction index on its second axis. -/
theorem lhs2048_col (j : S512x256.Idx) (q : dot_S512x2048_S256x2048_S512x256_1_1_0_0_n_n.contr.Idx) : (dot_S512x2048_S256x2048_S512x256_1_1_0_0_n_n.lhsIdx j q 1).val = (q ⟨0, by decide⟩).val :=
  dot_S512x2048_S256x2048_S512x256_1_1_0_0_n_n.lhsIdx_val_of_single rfl j q
/-- The right operand is read at the row the output's column names … -/
theorem rhs2048_row (j : S512x256.Idx) (q : dot_S512x2048_S256x2048_S512x256_1_1_0_0_n_n.contr.Idx) : (dot_S512x2048_S256x2048_S512x256_1_1_0_0_n_n.rhsIdx j q 0).val = (j 1).val := by
  unfold DotDims.rhsIdx
  rw [dif_neg (show ¬(0 : Fin S256x2048.rank) ∈ dot_S512x2048_S256x2048_S512x256_1_1_0_0_n_n.rhsBatch by decide), dif_pos (show (0 : Fin S256x2048.rank) ∈ dot_S512x2048_S256x2048_S512x256_1_1_0_0_n_n.rhsNonContracting by decide)]
  rfl
/-- … and at the contraction index on its second axis. -/
theorem rhs2048_col (j : S512x256.Idx) (q : dot_S512x2048_S256x2048_S512x256_1_1_0_0_n_n.contr.Idx) : (dot_S512x2048_S256x2048_S512x256_1_1_0_0_n_n.rhsIdx j q 1).val = (q ⟨0, by decide⟩).val :=
  dot_S512x2048_S256x2048_S512x256_1_1_0_0_n_n.rhsIdx_val_of_single rfl j q

/-- Entry `(p, s)` of the product into the zero block: row `p` of the left operand against row `s` of the right one,
    the sum over `l < 2048` of `a (p, l) * w (s, l)`, in the order of the contracted axis. -/
theorem matmul2048_apply (a : FVec Ideal S512x2048 .bf16) (w : FVec Ideal S256x2048 .bf16) (p : Fin 512) (s : Fin 256) :
    matmul dot_S512x2048_S256x2048_S512x256_1_1_0_0_n_n none a w (constant (F := Ideal) S512x256 .f32 0x00000000#32) (ix2 p s)
      = ∑ l : Fin 2048, a (ix2 p l) * w (ix2 s l) := by
  simp only [matmul]
  rw [Ideal.matmul_constant_zero_apply, ← Equiv.sum_comp (contrEquiv1 dot_S512x2048_S256x2048_S512x256_1_1_0_0_n_n 2048 rfl rfl).symm]
  refine Finset.sum_congr rfl fun k _ => ?_
  have hk := contrEquiv1_symm_val dot_S512x2048_S256x2048_S512x256_1_1_0_0_n_n 2048 rfl rfl k
  have el : dot_S512x2048_S256x2048_S512x256_1_1_0_0_n_n.lhsIdx (ix2 p s) ((contrEquiv1 dot_S512x2048_S256x2048_S512x256_1_1_0_0_n_n 2048 rfl rfl).symm k) = ix2 p k := funext fun c => Fin.ext (by
    match c with
    | ⟨0, _⟩ => exact lhs2048_row _ _
    | ⟨1, _⟩ => exact (lhs2048_col _ _).trans hk)
  have er : dot_S512x2048_S256x2048_S512x256_1_1_0_0_n_n.rhsIdx (ix2 p s) ((contrEquiv1 dot_S512x2048_S256x2048_S512x256_1_1_0_0_n_n 2048 rfl rfl).symm k) = ix2 s k := funext fun c => Fin.ext (by
    match c with
    | ⟨0, _⟩ => exact rhs2048_row _ _
    | ⟨1, _⟩ => exact (rhs2048_col _ _).trans hk)
  rw [el, er]

/-! ## A bias block [1, 256] spread over the 512 rows -/

/-- Entry `(p, s)` of the spread bias is the bias at `(0, s)`: the first axis has one entry, the second is kept. -/
theorem bias_apply (bias : Vec Ideal S1x256 .f32) (p : Fin 512) (s : Fin 256) :
    broadcastTo S512x256 bias broadcasts_S1x256_S512x256 (ix2 p s) = bias (ix2 0 s) :=
  broadcastTo_apply bias broadcasts_S1x256_S512x256 (ix2 p s) (ix2 0 s) (fun c => by
    match c with
    | ⟨0, _⟩ => rfl
    | ⟨1, _⟩ => rfl)

/-! ## The body's values at an entry `(p, s)` of the [512, 256] block -/

/-- One gate's pre-activation at entry `(p, s)` of the block: row `p` of the block of `x` against row `s` of the block of
    its `Wx`, row `p` of the block of `h` against row `s` of the block of its `Wh`, plus the bias block at `(0, s)`. -/
def blockPre (a : Vec Ideal S512x1024 .bf16) (b : Vec Ideal S512x2048 .bf16) (wx : Vec Ideal S256x1024 .bf16)
    (wh : Vec Ideal S256x2048 .bf16) (bias : Vec Ideal S1x256 .f32) (p : Fin 512) (s : Fin 256) : EReal :=
  pre (∑ l : Fin 1024, a (ix2 p l) * wx (ix2 s l)) (∑ l : Fin 2048, b (ix2 p l) * wh (ix2 s l)) (bias (ix2 0 s))

/-- The input gate's pre-activation, computed whole: `(x-product + h-product) + bias`. -/
theorem inputGate_apply (a : Vec Ideal S512x1024 .bf16) (b : Vec Ideal S512x2048 .bf16) (wx : Vec Ideal S256x1024 .bf16)
    (wh : Vec Ideal S256x2048 .bf16) (bias : Vec Ideal S1x256 .f32) (p : Fin 512) (s : Fin 256) :
    k0_pay5 (F := Ideal) a b wx wh bias (ix2 p s) = blockPre a b wx wh bias p s := by
  unfold k0_pay5 k0_pay3 k0_pay4 blockPre pre
  simp only [shapeCast_self]
  show matmul dot_S512x1024_S256x1024_S512x256_1_1_0_0_n_n none a wx (constant (F := Ideal) S512x256 .f32 0x00000000#32) (ix2 p s)
      + matmul dot_S512x2048_S256x2048_S512x256_1_1_0_0_n_n none b wh (constant (F := Ideal) S512x256 .f32 0x00000000#32) (ix2 p s)
      + broadcastTo S512x256 bias broadcasts_S1x256_S512x256 (ix2 p s) = _
  rw [matmul1024_apply, matmul2048_apply, bias_apply]

/-- The forget gate's pre-activation is computed by the same operations as the input gate's. -/
theorem forgetGate_apply (a : Vec Ideal S512x1024 .bf16) (b : Vec Ideal S512x2048 .bf16) (wx : Vec Ideal S256x1024 .bf16)
    (wh : Vec Ideal S256x2048 .bf16) (bias : Vec Ideal S1x256 .f32) (p : Fin 512) (s : Fin 256) :
    k0_pay6 (F := Ideal) a b wx wh bias (ix2 p s) = blockPre a b wx wh bias p s := by
  unfold k0_pay6 k0_pay3 k0_pay4 blockPre pre
  simp only [shapeCast_self]
  show matmul dot_S512x1024_S256x1024_S512x256_1_1_0_0_n_n none a wx (constant (F := Ideal) S512x256 .f32 0x00000000#32) (ix2 p s)
      + matmul dot_S512x2048_S256x2048_S512x256_1_1_0_0_n_n none b wh (constant (F := Ideal) S512x256 .f32 0x00000000#32) (ix2 p s)
      + broadcastTo S512x256 bias broadcasts_S1x256_S512x256 (ix2 p s) = _
  rw [matmul1024_apply, matmul2048_apply, bias_apply]

/-- The candidate gate's product of `x` with its `Wx`, kept apart from the `h` product and the bias until the cell update. -/
theorem candX_apply (a : Vec Ideal S512x1024 .bf16) (wx : Vec Ideal S256x1024 .bf16) (p : Fin 512) (s : Fin 256) :
    k0_pay7 (F := Ideal) a wx (ix2 p s) = ∑ l : Fin 1024, a (ix2 p l) * wx (ix2 s l) := by
  unfold k0_pay7 k0_pay3
  simp only [shapeCast_self]
  exact matmul1024_apply a wx p s

/-- The candidate gate's product of `h` with its `Wh`. -/
theorem candH_apply (b : Vec Ideal S512x2048 .bf16) (wh : Vec Ideal S256x2048 .bf16) (p : Fin 512) (s : Fin 256) :
    k0_pay8 (F := Ideal) b wh (ix2 p s) = ∑ l : Fin 2048, b (ix2 p l) * wh (ix2 s l) := by
  unfold k0_pay8 k0_pay4
  simp only [shapeCast_self]
  exact matmul2048_apply b wh p s

/-- The stored new cell entry, from the input and forget pre-activations `gi`, `gf`, the candidate gate's two products
    `cx`, `ch` and bias block `bc`, and the old cell block `c`:
    `sigma(gf) * c + sigma(gi) * tanh((cx + ch) + bc)`, all at `(p, s)` except the bias at `(0, s)`. -/
theorem cellPayload_apply (gi gf cx ch : FVec Ideal S512x256 .f32) (bc : Vec Ideal S1x256 .f32) (c : Vec Ideal S512x256 .f32)
    (p : Fin 512) (s : Fin 256) :
    k0_pay1 (F := Ideal) gi gf cx ch bc c (ix2 p s)
      = cellOf (gi (ix2 p s)) (gf (ix2 p s)) (pre (cx (ix2 p s)) (ch (ix2 p s)) (bc (ix2 0 s))) (c (ix2 p s)) := by
  unfold k0_pay1 cellOf pre
  simp only [shapeCast_self]
  show Ideal.logistic (gf (ix2 p s)) * c (ix2 p s)
      + Ideal.logistic (gi (ix2 p s)) * Ideal.tanh (cx (ix2 p s) + ch (ix2 p s) + broadcastTo S512x256 bc broadcasts_S1x256_S512x256 (ix2 p s)) = _
  rw [bias_apply]

/-- The stored new hidden entry: the output gate's pre-activation is computed here, from the blocks of `x`, `h`, `Wxo`,
    `Who` and `bo`, and multiplies `tanh` of the new cell entry: `sigma(go) * tanh(new cell)`. -/
theorem hiddenPayload_apply (a : FVec Ideal S512x1024 .bf16) (b : FVec Ideal S512x2048 .bf16) (gi gf cx ch : FVec Ideal S512x256 .f32)
    (bc : Vec Ideal S1x256 .f32) (wx : Vec Ideal S256x1024 .bf16) (wh : Vec Ideal S256x2048 .bf16) (bo : Vec Ideal S1x256 .f32)
    (c : Vec Ideal S512x256 .f32) (p : Fin 512) (s : Fin 256) :
    k0_pay2 (F := Ideal) a b gi gf cx ch bc wx wh bo c (ix2 p s)
      = hiddenOf (gi (ix2 p s)) (gf (ix2 p s)) (pre (cx (ix2 p s)) (ch (ix2 p s)) (bc (ix2 0 s))) (blockPre a b wx wh bo p s) (c (ix2 p s)) := by
  unfold k0_pay2 hiddenOf blockPre pre
  simp only [shapeCast_self]
  show Ideal.logistic (matmul dot_S512x1024_S256x1024_S512x256_1_1_0_0_n_n none a wx (constant (F := Ideal) S512x256 .f32 0x00000000#32) (ix2 p s)
        + matmul dot_S512x2048_S256x2048_S512x256_1_1_0_0_n_n none b wh (constant (F := Ideal) S512x256 .f32 0x00000000#32) (ix2 p s)
        + broadcastTo S512x256 bo broadcasts_S1x256_S512x256 (ix2 p s))
      * Ideal.tanh (k0_pay1 (F := Ideal) gi gf cx ch bc c (ix2 p s)) = _
  rw [matmul1024_apply, matmul2048_apply, bias_apply, cellPayload_apply]
  rfl

/-! ## The two output blocks after the body, at an entry -/

/-- The zero offsets of a whole-block access, as the constant function. -/
theorem zeroOffsets : (![0, 0] : Fin 2 → Nat) = fun _ => 0 := funext fun a => by fin_cases a <;> rfl

section Blocks
variable (x0 : Vec Ideal S512x1024 .bf16) (x1 : Vec Ideal S512x2048 .bf16)
  (x2 x3 x4 x5 : Vec Ideal S256x1024 .bf16) (x6 x7 x8 x9 : Vec Ideal S256x2048 .bf16)
  (x10 x11 x12 x13 : Vec Ideal S1x256 .f32) (x14 : Vec Ideal S512x256 .f32) (p : Fin 512) (s : Fin 256)

/-- The new-cell block at `(p, s)`: `sigma(f) * cell + sigma(i) * tanh(c)` with the input, forget and candidate
    pre-activations of the blocks (`x2, x6, x10`; `x3, x7, x11`; `x4, x8, x12`) and the old cell block `x14`. -/
theorem cellBlock_apply :
    out0_16 (F := Ideal) x0 x1 x2 x3 x4 x5 x6 x7 x8 x9 x10 x11 x12 x13 x14 (ix2 p s)
      = cellOf (blockPre x0 x1 x2 x6 x10 p s) (blockPre x0 x1 x3 x7 x11 p s) (blockPre x0 x1 x4 x8 x12 p s) (x14 (ix2 p s)) := by
  unfold out0_16
  rw [View.canon_unit_zero zeroOffsets]
  simp only [View.ld_unit_zero (S := S512x1024) zeroOffsets, View.ld_unit_zero (S := S512x2048) zeroOffsets,
    View.ld_unit_zero (S := S256x1024) zeroOffsets, View.ld_unit_zero (S := S256x2048) zeroOffsets,
    View.ld_unit_zero (S := S1x256) zeroOffsets, View.ld_unit_zero (S := S512x256) zeroOffsets]
  rw [cellPayload_apply, inputGate_apply, forgetGate_apply, candX_apply, candH_apply]
  rfl

/-- The new-hidden block at `(p, s)`: `sigma(o) * tanh(new cell)`, the output gate's pre-activation from the blocks
    `x5, x9, x13`. -/
theorem hiddenBlock_apply :
    out0_15 (F := Ideal) x0 x1 x2 x3 x4 x5 x6 x7 x8 x9 x10 x11 x12 x13 x14 (ix2 p s)
      = hiddenOf (blockPre x0 x1 x2 x6 x10 p s) (blockPre x0 x1 x3 x7 x11 p s) (blockPre x0 x1 x4 x8 x12 p s)
          (blockPre x0 x1 x5 x9 x13 p s) (x14 (ix2 p s)) := by
  unfold out0_15
  rw [View.canon_unit_zero zeroOffsets]
  simp only [View.ld_unit_zero (S := S512x1024) zeroOffsets, View.ld_unit_zero (S := S512x2048) zeroOffsets,
    View.ld_unit_zero (S := S256x1024) zeroOffsets, View.ld_unit_zero (S := S256x2048) zeroOffsets,
    View.ld_unit_zero (S := S1x256) zeroOffsets, View.ld_unit_zero (S := S512x256) zeroOffsets]
  rw [hiddenPayload_apply, inputGate_apply, forgetGate_apply, candX_apply, candH_apply]
  unfold k0_pay3 k0_pay4
  simp only [shapeCast_self]
  rfl

end Blocks

end Cert.KernelIdeal.CellBody

end
-- ==== Proof.CellCover.lean ====
/-
  The cell kernel's two output windows tile their arrays.

  The cell kernel's grid is 8 x 8. At the point with grid coordinates (a, b) both output windows (the new hidden state
  and the new cell state, each a [4096, 2048] array in [512, 256] blocks) are at row block a and column block b, and
  every point writes its blocks back. Every pair (a, b) with a, b < 8 is some point's, so entry (r, q) of either array
  lies in the block written back at the point whose block index is (r / 512, q / 256).
-/
import proofs.«105698_j43817256354365_1_alg».proof.Proof.Gen.KernelIdeal.Frame
import proofs.«105698_j43817256354365_1_alg».proof.Proof.Gen.KernelIdeal.Points
import Idealize.ShloMosaic.Lib.Pipeline.Value

set_option maxRecDepth 16384

noncomputable section

open Idealize.ShloMosaic Idealize.ShloMosaic.TcCoe
open Idealize.SL.Sem
open Idealize.ShloMosaic.Pipeline (Dat)
open Cert.KernelIdeal Cert.KernelIdeal.Gen

namespace Cert.KernelIdeal.CellCover

/-! ## Where the output blocks sit -/

/-- At every point both output windows are at the same block, whose row-block and column-block numbers are below 8. -/
theorem out_index_lt : ∀ t : Fin cfg0.N, win0_15.index t (0 : Fin 2) < 8 ∧ win0_15.index t (1 : Fin 2) < 8
    ∧ win0_16.index t (0 : Fin 2) = win0_15.index t (0 : Fin 2)
    ∧ win0_16.index t (1 : Fin 2) = win0_15.index t (1 : Fin 2) :=
  (by decide +kernel : ∀ t : Fin grid0.N, _)

/-- Every block (b0, b1) of the 8 x 8 tiling is some point's. -/
theorem out_index_onto : ∀ (b0 : Fin 8) (b1 : Fin 8), ∃ t : Fin cfg0.N, win0_15.index t = ![b0.val, b1.val] :=
  (by decide +kernel : ∀ (b0 : Fin 8) (b1 : Fin 8), ∃ t : Fin grid0.N, win0_15.index t = ![b0.val, b1.val])

/-! ## Membership in a point's block -/

/-- An entry of the new hidden state is in point t's block iff each coordinate is in the block's range on its axis. -/
theorem mem_hiddenBlock (t : Fin cfg0.N) (i : S4096x2048.Idx) :
    i ∈ ((cfg0.win 15).blk t).view.set ↔ ∀ a : Fin 2, win0_15.index t a * S512x256.size a ≤ (i a).val
      ∧ (i a).val < win0_15.index t a * S512x256.size a + S512x256.size a := by
  show i ∈ ((View.whole main_v14_0).slice (win0_15.rect t)).set ↔ _
  rw [View.set_slice_whole, Rect.mem_set_unit]
  exact Iff.rfl

/-- An entry of the new cell state is in point t's block iff each coordinate is in the block's range on its axis. -/
theorem mem_cellBlock (t : Fin cfg0.N) (i : S4096x2048.Idx) :
    i ∈ ((cfg0.win 16).blk t).view.set ↔ ∀ a : Fin 2, win0_16.index t a * S512x256.size a ≤ (i a).val
      ∧ (i a).val < win0_16.index t a * S512x256.size a + S512x256.size a := by
  show i ∈ ((View.whole main_v14_1).slice (win0_16.rect t)).set ↔ _
  rw [View.set_slice_whole, Rect.mem_set_unit]
  exact Iff.rfl

/-! ## The blocks cover the arrays -/

/-- Every entry (r, q) of the new hidden state is in the block written back at the point of block index
    (r / 512, q / 256). -/
theorem hidden_cover (i : S4096x2048.Idx) :
    ∃ t : Fin cfg0.N, (cfg0.win 15).flush t = true ∧ i ∈ ((cfg0.win 15).blk t).view.set := by
  have hi0 : (i 0).val < 4096 := (i 0).isLt
  have hi1 : (i 1).val < 2048 := (i 1).isLt
  obtain ⟨t, ht⟩ := out_index_onto ⟨(i 0).val / 512, by omega⟩ ⟨(i 1).val / 256, by omega⟩
  have q0 : win0_15.index t (0 : Fin 2) = (i 0).val / 512 := congrFun ht 0
  have q1 : win0_15.index t (1 : Fin 2) = (i 1).val / 256 := congrFun ht 1
  refine ⟨t, flush0_15 t, ?_⟩
  rw [mem_hiddenBlock]
  intro a
  match a with
  | ⟨0, _⟩ =>
    show win0_15.index t (0 : Fin 2) * 512 ≤ (i 0).val ∧ (i 0).val < win0_15.index t (0 : Fin 2) * 512 + 512
    rw [q0]; omega
  | ⟨1, _⟩ =>
    show win0_15.index t (1 : Fin 2) * 256 ≤ (i 1).val ∧ (i 1).val < win0_15.index t (1 : Fin 2) * 256 + 256
    rw [q1]; omega

/-- Every entry (r, q) of the new cell state is in the block written back at the point of block index
    (r / 512, q / 256). -/
theorem cell_cover (i : S4096x2048.Idx) :
    ∃ t : Fin cfg0.N, (cfg0.win 16).flush t = true ∧ i ∈ ((cfg0.win 16).blk t).view.set := by
  have hi0 : (i 0).val < 4096 := (i 0).isLt
  have hi1 : (i 1).val < 2048 := (i 1).isLt
  obtain ⟨t, ht⟩ := out_index_onto ⟨(i 0).val / 512, by omega⟩ ⟨(i 1).val / 256, by omega⟩
  obtain ⟨-, -, e0, e1⟩ := out_index_lt t
  have q0 : win0_16.index t (0 : Fin 2) = (i 0).val / 512 := e0.trans (congrFun ht 0)
  have q1 : win0_16.index t (1 : Fin 2) = (i 1).val / 256 := e1.trans (congrFun ht 1)
  refine ⟨t, flush0_16 t, ?_⟩
  rw [mem_cellBlock]
  intro a
  match a with
  | ⟨0, _⟩ =>
    show win0_16.index t (0 : Fin 2) * 512 ≤ (i 0).val ∧ (i 0).val < win0_16.index t (0 : Fin 2) * 512 + 512
    rw [q0]; omega
  | ⟨1, _⟩ =>
    show win0_16.index t (1 : Fin 2) * 256 ≤ (i 1).val ∧ (i 1).val < win0_16.index t (1 : Fin 2) * 256 + 256
    rw [q1]; omega

end Cert.KernelIdeal.CellCover

end
-- ==== Proof.CellBlocks.lean ====
/-
  The first region's two output arrays after its run, as functions of what the region finds in its input windows.

  The grid has 8 × 8 points; point (row-block, column-block) writes back the [512, 256] block of each output array at
  rows 512 · row-block … and columns 256 · column-block ….  At that point the body sees rows 512 · row-block … of `x`
  and of the old hidden state, rows 256 · column-block … of each of the eight weight matrices, columns
  256 · column-block … of each one-row bias, and the matching block of the old cell state; so entry (p, s) of what it
  stores is the new hidden (new cell) entry at row 512 · row-block + p and hidden unit 256 · column-block + s, each
  row product running over a whole row of both factors.  The blocks tile the arrays, so the arrays end at `newHidden`
  and `newCell` of the inputs.
-/
import proofs.«105698_j43817256354365_1_alg».proof.Proof.Gen.KernelIdeal.Frame
import proofs.«105698_j43817256354365_1_alg».proof.Proof.Gen.KernelIdeal.Points
import proofs.«105698_j43817256354365_1_alg».proof.Proof.Spec
import proofs.«105698_j43817256354365_1_alg».proof.Proof.CellBody
import proofs.«105698_j43817256354365_1_alg».proof.Proof.CellCover
import Idealize.ShloMosaic.PureOps.Ideal
import Idealize.ShloMosaic.Lib.ValueIdx
import Idealize.ShloMosaic.Lib.Pipeline.Value

set_option maxRecDepth 16384

noncomputable section

namespace Cert.KernelIdeal.CellBlocks

open Cert.KernelIdeal Cert.KernelIdeal.Gen Cert.LstmStep Cert.KernelIdeal.CellBody
open Idealize.ShloMosaic Idealize.ShloMosaic.TcCoe Idealize.ShloMosaic.ValueIdx
open Idealize.SL Idealize.SL.Sem
open Idealize.ShloMosaic.Pipeline (Dat)
open scoped BigOperators

variable (V : (c : Dev nD) → (b : Ref sig .tc) → Buf (Elt Ideal) ((c : Thread nD τ).loc b))

/-- What the region finds in its fifteen input windows' arrays, against the inputs `A`: each matrix operand is the
    corresponding input, each one-row bias reads at (0, q) the bias at q. -/
structure Finds (c : Dev nD) (A : Inputs) : Prop where
  x : (V c main_v0 : S4096x1024.Idx → EReal) = A.x
  h : (V c main_v1 : S4096x2048.Idx → EReal) = A.h
  Wxi : (V c main_v2 : S2048x1024.Idx → EReal) = A.Wxi
  Wxf : (V c main_v3 : S2048x1024.Idx → EReal) = A.Wxf
  Wxc : (V c main_v4 : S2048x1024.Idx → EReal) = A.Wxc
  Wxo : (V c main_v5 : S2048x1024.Idx → EReal) = A.Wxo
  Whi : (V c main_v6 : S2048x2048.Idx → EReal) = A.Whi
  Whf : (V c main_v7 : S2048x2048.Idx → EReal) = A.Whf
  Whc : (V c main_v8 : S2048x2048.Idx → EReal) = A.Whc
  Who : (V c main_v9 : S2048x2048.Idx → EReal) = A.Who
  bi : ∀ q : Fin 2048, (V c main_v10 : S1x2048.Idx → EReal) (ix2 0 q) = A.bi (ix1 q)
  bf : ∀ q : Fin 2048, (V c main_v11 : S1x2048.Idx → EReal) (ix2 0 q) = A.bf (ix1 q)
  bc : ∀ q : Fin 2048, (V c main_v12 : S1x2048.Idx → EReal) (ix2 0 q) = A.bc (ix1 q)
  bo : ∀ q : Fin 2048, (V c main_v13 : S1x2048.Idx → EReal) (ix2 0 q) = A.bo (ix1 q)
  cell : (V c main_arg2 : S4096x2048.Idx → EReal) = A.cell

/-! ## The windows' index maps, decided over the 64 points -/

theorem idx_x : ∀ t : Fin cfg0.N, win0_0.index t (0 : Fin 2) = win0_15.index t (0 : Fin 2) ∧ win0_0.index t (1 : Fin 2) = 0 :=
  (by decide +kernel : ∀ t : Fin grid0.N, _)
theorem idx_h : ∀ t : Fin cfg0.N, win0_1.index t (0 : Fin 2) = win0_15.index t (0 : Fin 2) ∧ win0_1.index t (1 : Fin 2) = 0 :=
  (by decide +kernel : ∀ t : Fin grid0.N, _)
theorem idx_Wxi : ∀ t : Fin cfg0.N, win0_2.index t (0 : Fin 2) = win0_15.index t (1 : Fin 2) ∧ win0_2.index t (1 : Fin 2) = 0 :=
  (by decide +kernel : ∀ t : Fin grid0.N, _)
theorem idx_Wxf : ∀ t : Fin cfg0.N, win0_3.index t (0 : Fin 2) = win0_15.index t (1 : Fin 2) ∧ win0_3.index t (1 : Fin 2) = 0 :=
  (by decide +kernel : ∀ t : Fin grid0.N, _)
theorem idx_Wxc : ∀ t : Fin cfg0.N, win0_4.index t (0 : Fin 2) = win0_15.index t (1 : Fin 2) ∧ win0_4.index t (1 : Fin 2) = 0 :=
  (by decide +kernel : ∀ t : Fin grid0.N, _)
theorem idx_Wxo : ∀ t : Fin cfg0.N, win0_5.index t (0 : Fin 2) = win0_15.index t (1 : Fin 2) ∧ win0_5.index t (1 : Fin 2) = 0 :=
  (by decide +kernel : ∀ t : Fin grid0.N, _)
theorem idx_Whi : ∀ t : Fin cfg0.N, win0_6.index t (0 : Fin 2) = win0_15.index t (1 : Fin 2) ∧ win0_6.index t (1 : Fin 2) = 0 :=
  (by decide +kernel : ∀ t : Fin grid0.N, _)
theorem idx_Whf : ∀ t : Fin cfg0.N, win0_7.index t (0 : Fin 2) = win0_15.index t (1 : Fin 2) ∧ win0_7.index t (1 : Fin 2) = 0 :=
  (by decide +kernel : ∀ t : Fin grid0.N, _)
theorem idx_Whc : ∀ t : Fin cfg0.N, win0_8.index t (0 : Fin 2) = win0_15.index t (1 : Fin 2) ∧ win0_8.index t (1 : Fin 2) = 0 :=
  (by decide +kernel : ∀ t : Fin grid0.N, _)
theorem idx_Who : ∀ t : Fin cfg0.N, win0_9.index t (0 : Fin 2) = win0_15.index t (1 : Fin 2) ∧ win0_9.index t (1 : Fin 2) = 0 :=
  (by decide +kernel : ∀ t : Fin grid0.N, _)
theorem idx_bi : ∀ t : Fin cfg0.N, win0_10.index t (0 : Fin 2) = 0 ∧ win0_10.index t (1 : Fin 2) = win0_15.index t (1 : Fin 2) :=
  (by decide +kernel : ∀ t : Fin grid0.N, _)
theorem idx_bf : ∀ t : Fin cfg0.N, win0_11.index t (0 : Fin 2) = 0 ∧ win0_11.index t (1 : Fin 2) = win0_15.index t (1 : Fin 2) :=
  (by decide +kernel : ∀ t : Fin grid0.N, _)
theorem idx_bc : ∀ t : Fin cfg0.N, win0_12.index t (0 : Fin 2) = 0 ∧ win0_12.index t (1 : Fin 2) = win0_15.index t (1 : Fin 2) :=
  (by decide +kernel : ∀ t : Fin grid0.N, _)
theorem idx_bo : ∀ t : Fin cfg0.N, win0_13.index t (0 : Fin 2) = 0 ∧ win0_13.index t (1 : Fin 2) = win0_15.index t (1 : Fin 2) :=
  (by decide +kernel : ∀ t : Fin grid0.N, _)
theorem idx_cell : ∀ t : Fin cfg0.N, win0_14.index t (0 : Fin 2) = win0_15.index t (0 : Fin 2) ∧ win0_14.index t (1 : Fin 2) = win0_15.index t (1 : Fin 2) :=
  (by decide +kernel : ∀ t : Fin grid0.N, _)
/-- The two output windows move together, and their block indices stay below 8 on both axes. -/
theorem idx_out : ∀ t : Fin cfg0.N, win0_15.index t (0 : Fin 2) < 8 ∧ win0_15.index t (1 : Fin 2) < 8
    ∧ win0_16.index t (0 : Fin 2) = win0_15.index t (0 : Fin 2) ∧ win0_16.index t (1 : Fin 2) = win0_15.index t (1 : Fin 2) :=
  (by decide +kernel : ∀ t : Fin grid0.N, _)

/-! ## Each input window's block at a point, read off its array -/

/-- Point `t`'s block of window 0: the 512 rows of `x` from row 512 · (the point's row-block number) on, whole. -/
theorem read_x (c : Dev nD) (t : Fin cfg0.N) (X : Mat 4096 1024) (hX : (V c main_v0 : S4096x1024.Idx → EReal) = X)
    (p : Fin 512) (l : Fin 1024) (r : Fin 4096) (hr : r.val = win0_15.index t (0 : Fin 2) * 512 + p.val) :
    (iblk0 V c 0 t : Vec Ideal S512x1024 .bf16) (ix2 p l) = X (ix2 r l) := by
  obtain ⟨e0, e1⟩ := idx_x t
  unfold iblk0
  rw [View.read_apply]
  show (V c main_v0 : S4096x1024.Idx → EReal) _ = X _
  rw [hX]
  congr 1
  funext a
  apply Fin.ext
  match a with
  | ⟨0, _⟩ => show win0_0.index t (0 : Fin 2) * 512 + 1 * p.val = r.val; rw [e0, hr]; omega
  | ⟨1, _⟩ => show win0_0.index t (1 : Fin 2) * 1024 + 1 * l.val = l.val; rw [e1]; omega

/-- Point `t`'s block of window 1: the 512 rows of `h` from row 512 · (the point's row-block number) on, whole. -/
theorem read_h (c : Dev nD) (t : Fin cfg0.N) (X : Mat 4096 2048) (hX : (V c main_v1 : S4096x2048.Idx → EReal) = X)
    (p : Fin 512) (l : Fin 2048) (r : Fin 4096) (hr : r.val = win0_15.index t (0 : Fin 2) * 512 + p.val) :
    (iblk0 V c 1 t : Vec Ideal S512x2048 .bf16) (ix2 p l) = X (ix2 r l) := by
  obtain ⟨e0, e1⟩ := idx_h t
  unfold iblk0
  rw [View.read_apply]
  show (V c main_v1 : S4096x2048.Idx → EReal) _ = X _
  rw [hX]
  congr 1
  funext a
  apply Fin.ext
  match a with
  | ⟨0, _⟩ => show win0_1.index t (0 : Fin 2) * 512 + 1 * p.val = r.val; rw [e0, hr]; omega
  | ⟨1, _⟩ => show win0_1.index t (1 : Fin 2) * 2048 + 1 * l.val = l.val; rw [e1]; omega

/-- Point `t`'s block of window 2: the 256 rows of `Wxi` from row 256 · (the point's column-block number) on, whole. -/
theorem read_Wxi (c : Dev nD) (t : Fin cfg0.N) (Wm : Mat 2048 1024) (hW : (V c main_v2 : S2048x1024.Idx → EReal) = Wm)
    (s : Fin 256) (l : Fin 1024) (q : Fin 2048) (hq : q.val = win0_15.index t (1 : Fin 2) * 256 + s.val) :
    (iblk0 V c 2 t : Vec Ideal S256x1024 .bf16) (ix2 s l) = Wm (ix2 q l) := by
  obtain ⟨e0, e1⟩ := idx_Wxi t
  unfold iblk0
  rw [View.read_apply]
  show (V c main_v2 : S2048x1024.Idx → EReal) _ = Wm _
  rw [hW]
  congr 1
  funext a
  apply Fin.ext
  match a with
  | ⟨0, _⟩ => show win0_2.index t (0 : Fin 2) * 256 + 1 * s.val = q.val; rw [e0, hq]; omega
  | ⟨1, _⟩ => show win0_2.index t (1 : Fin 2) * 1024 + 1 * l.val = l.val; rw [e1]; omega

/-- Point `t`'s block of window 3: the 256 rows of `Wxf` from row 256 · (the point's column-block number) on, whole. -/
theorem read_Wxf (c : Dev nD) (t : Fin cfg0.N) (Wm : Mat 2048 1024) (hW : (V c main_v3 : S2048x1024.Idx → EReal) = Wm)
    (s : Fin 256) (l : Fin 1024) (q : Fin 2048) (hq : q.val = win0_15.index t (1 : Fin 2) * 256 + s.val) :
    (iblk0 V c 3 t : Vec Ideal S256x1024 .bf16) (ix2 s l) = Wm (ix2 q l) := by
  obtain ⟨e0, e1⟩ := idx_Wxf t
  unfold iblk0
  rw [View.read_apply]
  show (V c main_v3 : S2048x1024.Idx → EReal) _ = Wm _
  rw [hW]
  congr 1
  funext a
  apply Fin.ext
  match a with
  | ⟨0, _⟩ => show win0_3.index t (0 : Fin 2) * 256 + 1 * s.val = q.val; rw [e0, hq]; omega
  | ⟨1, _⟩ => show win0_3.index t (1 : Fin 2) * 1024 + 1 * l.val = l.val; rw [e1]; omega

/-- Point `t`'s block of window 4: the 256 rows of `Wxc` from row 256 · (the point's column-block number) on, whole. -/
theorem read_Wxc (c : Dev nD) (t : Fin cfg0.N) (Wm : Mat 2048 1024) (hW : (V c main_v4 : S2048x1024.Idx → EReal) = Wm)
    (s : Fin 256) (l : Fin 1024) (q : Fin 2048) (hq : q.val = win0_15.index t (1 : Fin 2) * 256 + s.val) :
    (iblk0 V c 4 t : Vec Ideal S256x1024 .bf16) (ix2 s l) = Wm (ix2 q l) := by
  obtain ⟨e0, e1⟩ := idx_Wxc t
  unfold iblk0
  rw [View.read_apply]
  show (V c main_v4 : S2048x1024.Idx → EReal) _ = Wm _
  rw [hW]
  congr 1
  funext a
  apply Fin.ext
  match a with
  | ⟨0, _⟩ => show win0_4.index t (0 : Fin 2) * 256 + 1 * s.val = q.val; rw [e0, hq]; omega
  | ⟨1, _⟩ => show win0_4.index t (1 : Fin 2) * 1024 + 1 * l.val = l.val; rw [e1]; omega

/-- Point `t`'s block of window 5: the 256 rows of `Wxo` from row 256 · (the point's column-block number) on, whole. -/
theorem read_Wxo (c : Dev nD) (t : Fin cfg0.N) (Wm : Mat 2048 1024) (hW : (V c main_v5 : S2048x1024.Idx → EReal) = Wm)
    (s : Fin 256) (l : Fin 1024) (q : Fin 2048) (hq : q.val = win0_15.index t (1 : Fin 2) * 256 + s.val) :
    (iblk0 V c 5 t : Vec Ideal S256x1024 .bf16) (ix2 s l) = Wm (ix2 q l) := by
  obtain ⟨e0, e1⟩ := idx_Wxo t
  unfold iblk0
  rw [View.read_apply]
  show (V c main_v5 : S2048x1024.Idx → EReal) _ = Wm _
  rw [hW]
  congr 1
  funext a
  apply Fin.ext
  match a with
  | ⟨0, _⟩ => show win0_5.index t (0 : Fin 2) * 256 + 1 * s.val = q.val; rw [e0, hq]; omega
  | ⟨1, _⟩ => show win0_5.index t (1 : Fin 2) * 1024 + 1 * l.val = l.val; rw [e1]; omega

/-- Point `t`'s block of window 6: the 256 rows of `Whi` from row 256 · (the point's column-block number) on, whole. -/
theorem read_Whi (c : Dev nD) (t : Fin cfg0.N) (Wm : Mat 2048 2048) (hW : (V c main_v6 : S2048x2048.Idx → EReal) = Wm)
    (s : Fin 256) (l : Fin 2048) (q : Fin 2048) (hq : q.val = win0_15.index t (1 : Fin 2) * 256 + s.val) :
    (iblk0 V c 6 t : Vec Ideal S256x2048 .bf16) (ix2 s l) = Wm (ix2 q l) := by
  obtain ⟨e0, e1⟩ := idx_Whi t
  unfold iblk0
  rw [View.read_apply]
  show (V c main_v6 : S2048x2048.Idx → EReal) _ = Wm _
  rw [hW]
  congr 1
  funext a
  apply Fin.ext
  match a with
  | ⟨0, _⟩ => show win0_6.index t (0 : Fin 2) * 256 + 1 * s.val = q.val; rw [e0, hq]; omega
  | ⟨1, _⟩ => show win0_6.index t (1 : Fin 2) * 2048 + 1 * l.val = l.val; rw [e1]; omega

/-- Point `t`'s block of window 7: the 256 rows of `Whf` from row 256 · (the point's column-block number) on, whole. -/
theorem read_Whf (c : Dev nD) (t : Fin cfg0.N) (Wm : Mat 2048 2048) (hW : (V c main_v7 : S2048x2048.Idx → EReal) = Wm)
    (s : Fin 256) (l : Fin 2048) (q : Fin 2048) (hq : q.val = win0_15.index t (1 : Fin 2) * 256 + s.val) :
    (iblk0 V c 7 t : Vec Ideal S256x2048 .bf16) (ix2 s l) = Wm (ix2 q l) := by
  obtain ⟨e0, e1⟩ := idx_Whf t
  unfold iblk0
  rw [View.read_apply]
  show (V c main_v7 : S2048x2048.Idx → EReal) _ = Wm _
  rw [hW]
  congr 1
  funext a
  apply Fin.ext
  match a with
  | ⟨0, _⟩ => show win0_7.index t (0 : Fin 2) * 256 + 1 * s.val = q.val; rw [e0, hq]; omega
  | ⟨1, _⟩ => show win0_7.index t (1 : Fin 2) * 2048 + 1 * l.val = l.val; rw [e1]; omega

/-- Point `t`'s block of window 8: the 256 rows of `Whc` from row 256 · (the point's column-block number) on, whole. -/
theorem read_Whc (c : Dev nD) (t : Fin cfg0.N) (Wm : Mat 2048 2048) (hW : (V c main_v8 : S2048x2048.Idx → EReal) = Wm)
    (s : Fin 256) (l : Fin 2048) (q : Fin 2048) (hq : q.val = win0_15.index t (1 : Fin 2) * 256 + s.val) :
    (iblk0 V c 8 t : Vec Ideal S256x2048 .bf16) (ix2 s l) = Wm (ix2 q l) := by
  obtain ⟨e0, e1⟩ := idx_Whc t
  unfold iblk0
  rw [View.read_apply]
  show (V c main_v8 : S2048x2048.Idx → EReal) _ = Wm _
  rw [hW]
  congr 1
  funext a
  apply Fin.ext
  match a with
  | ⟨0, _⟩ => show win0_8.index t (0 : Fin 2) * 256 + 1 * s.val = q.val; rw [e0, hq]; omega
  | ⟨1, _⟩ => show win0_8.index t (1 : Fin 2) * 2048 + 1 * l.val = l.val; rw [e1]; omega

/-- Point `t`'s block of window 9: the 256 rows of `Who` from row 256 · (the point's column-block number) on, whole. -/
theorem read_Who (c : Dev nD) (t : Fin cfg0.N) (Wm : Mat 2048 2048) (hW : (V c main_v9 : S2048x2048.Idx → EReal) = Wm)
    (s : Fin 256) (l : Fin 2048) (q : Fin 2048) (hq : q.val = win0_15.index t (1 : Fin 2) * 256 + s.val) :
    (iblk0 V c 9 t : Vec Ideal S256x2048 .bf16) (ix2 s l) = Wm (ix2 q l) := by
  obtain ⟨e0, e1⟩ := idx_Who t
  unfold iblk0
  rw [View.read_apply]
  show (V c main_v9 : S2048x2048.Idx → EReal) _ = Wm _
  rw [hW]
  congr 1
  funext a
  apply Fin.ext
  match a with
  | ⟨0, _⟩ => show win0_9.index t (0 : Fin 2) * 256 + 1 * s.val = q.val; rw [e0, hq]; omega
  | ⟨1, _⟩ => show win0_9.index t (1 : Fin 2) * 2048 + 1 * l.val = l.val; rw [e1]; omega

/-- Point `t`'s block of window 10: the 256 entries of the one-row `bi` from column 256 · (the point's column-block number) on. -/
theorem read_bi (c : Dev nD) (t : Fin cfg0.N) (Bv : Vect 2048)
    (hB : ∀ q : Fin 2048, (V c main_v10 : S1x2048.Idx → EReal) (ix2 0 q) = Bv (ix1 q))
    (s : Fin 256) (q : Fin 2048) (hq : q.val = win0_15.index t (1 : Fin 2) * 256 + s.val) :
    (iblk0 V c 10 t : Vec Ideal S1x256 .f32) (ix2 0 s) = Bv (ix1 q) := by
  obtain ⟨e0, e1⟩ := idx_bi t
  unfold iblk0
  rw [View.read_apply, ← hB q]
  show (V c main_v10 : S1x2048.Idx → EReal) _ = (V c main_v10 : S1x2048.Idx → EReal) _
  congr 1
  funext a
  apply Fin.ext
  match a with
  | ⟨0, _⟩ => show win0_10.index t (0 : Fin 2) * 1 + 1 * 0 = 0; rw [e0]
  | ⟨1, _⟩ => show win0_10.index t (1 : Fin 2) * 256 + 1 * s.val = q.val; rw [e1, hq]; omega

/-- Point `t`'s block of window 11: the 256 entries of the one-row `bf` from column 256 · (the point's column-block number) on. -/
theorem read_bf (c : Dev nD) (t : Fin cfg0.N) (Bv : Vect 2048)
    (hB : ∀ q : Fin 2048, (V c main_v11 : S1x2048.Idx → EReal) (ix2 0 q) = Bv (ix1 q))
    (s : Fin 256) (q : Fin 2048) (hq : q.val = win0_15.index t (1 : Fin 2) * 256 + s.val) :
    (iblk0 V c 11 t : Vec Ideal S1x256 .f32) (ix2 0 s) = Bv (ix1 q) := by
  obtain ⟨e0, e1⟩ := idx_bf t
  unfold iblk0
  rw [View.read_apply, ← hB q]
  show (V c main_v11 : S1x2048.Idx → EReal) _ = (V c main_v11 : S1x2048.Idx → EReal) _
  congr 1
  funext a
  apply Fin.ext
  match a with
  | ⟨0, _⟩ => show win0_11.index t (0 : Fin 2) * 1 + 1 * 0 = 0; rw [e0]
  | ⟨1, _⟩ => show win0_11.index t (1 : Fin 2) * 256 + 1 * s.val = q.val; rw [e1, hq]; omega

/-- Point `t`'s block of window 12: the 256 entries of the one-row `bc` from column 256 · (the point's column-block number) on. -/
theorem read_bc (c : Dev nD) (t : Fin cfg0.N) (Bv : Vect 2048)
    (hB : ∀ q : Fin 2048, (V c main_v12 : S1x2048.Idx → EReal) (ix2 0 q) = Bv (ix1 q))
    (s : Fin 256) (q : Fin 2048) (hq : q.val = win0_15.index t (1 : Fin 2) * 256 + s.val) :
    (iblk0 V c 12 t : Vec Ideal S1x256 .f32) (ix2 0 s) = Bv (ix1 q) := by
  obtain ⟨e0, e1⟩ := idx_bc t
  unfold iblk0
  rw [View.read_apply, ← hB q]
  show (V c main_v12 : S1x2048.Idx → EReal) _ = (V c main_v12 : S1x2048.Idx → EReal) _
  congr 1
  funext a
  apply Fin.ext
  match a with
  | ⟨0, _⟩ => show win0_12.index t (0 : Fin 2) * 1 + 1 * 0 = 0; rw [e0]
  | ⟨1, _⟩ => show win0_12.index t (1 : Fin 2) * 256 + 1 * s.val = q.val; rw [e1, hq]; omega

/-- Point `t`'s block of window 13: the 256 entries of the one-row `bo` from column 256 · (the point's column-block number) on. -/
theorem read_bo (c : Dev nD) (t : Fin cfg0.N) (Bv : Vect 2048)
    (hB : ∀ q : Fin 2048, (V c main_v13 : S1x2048.Idx → EReal) (ix2 0 q) = Bv (ix1 q))
    (s : Fin 256) (q : Fin 2048) (hq : q.val = win0_15.index t (1 : Fin 2) * 256 + s.val) :
    (iblk0 V c 13 t : Vec Ideal S1x256 .f32) (ix2 0 s) = Bv (ix1 q) := by
  obtain ⟨e0, e1⟩ := idx_bo t
  unfold iblk0
  rw [View.read_apply, ← hB q]
  show (V c main_v13 : S1x2048.Idx → EReal) _ = (V c main_v13 : S1x2048.Idx → EReal) _
  congr 1
  funext a
  apply Fin.ext
  match a with
  | ⟨0, _⟩ => show win0_13.index t (0 : Fin 2) * 1 + 1 * 0 = 0; rw [e0]
  | ⟨1, _⟩ => show win0_13.index t (1 : Fin 2) * 256 + 1 * s.val = q.val; rw [e1, hq]; omega

/-- Point `t`'s block of window 14: the [512, 256] block of the old cell state at the point's (row-block, column-block). -/
theorem read_cell (c : Dev nD) (t : Fin cfg0.N) (Cm : Mat 4096 2048) (hC : (V c main_arg2 : S4096x2048.Idx → EReal) = Cm)
    (p : Fin 512) (s : Fin 256) (r : Fin 4096) (q : Fin 2048)
    (hr : r.val = win0_15.index t (0 : Fin 2) * 512 + p.val) (hq : q.val = win0_15.index t (1 : Fin 2) * 256 + s.val) :
    (iblk0 V c 14 t : Vec Ideal S512x256 .f32) (ix2 p s) = Cm (ix2 r q) := by
  obtain ⟨e0, e1⟩ := idx_cell t
  unfold iblk0
  rw [View.read_apply]
  show (V c main_arg2 : S4096x2048.Idx → EReal) _ = Cm _
  rw [hC]
  congr 1
  funext a
  apply Fin.ext
  match a with
  | ⟨0, _⟩ => show win0_14.index t (0 : Fin 2) * 512 + 1 * p.val = r.val; rw [e0, hr]; omega
  | ⟨1, _⟩ => show win0_14.index t (1 : Fin 2) * 256 + 1 * s.val = q.val; rw [e1, hq]; omega

/-! ## One point's stores, entry by entry -/

/-- A block-level pre-activation is the array-level one once each block entry is the matching array entry. -/
theorem blockPre_eq (a : Vec Ideal S512x1024 .bf16) (b : Vec Ideal S512x2048 .bf16) (wx : Vec Ideal S256x1024 .bf16)
    (wh : Vec Ideal S256x2048 .bf16) (bias : Vec Ideal S1x256 .f32)
    (X : Mat 4096 1024) (H : Mat 4096 2048) (Wx : Mat 2048 1024) (Wh : Mat 2048 2048) (B : Vect 2048)
    (p : Fin 512) (s : Fin 256) (r : Fin 4096) (q : Fin 2048)
    (ha : ∀ l : Fin 1024, a (ix2 p l) = X (ix2 r l)) (hb : ∀ l : Fin 2048, b (ix2 p l) = H (ix2 r l))
    (hwx : ∀ l : Fin 1024, wx (ix2 s l) = Wx (ix2 q l)) (hwh : ∀ l : Fin 2048, wh (ix2 s l) = Wh (ix2 q l))
    (hbias : bias (ix2 0 s) = B (ix1 q)) :
    blockPre a b wx wh bias p s = gatePre X H Wx Wh B r q := by
  unfold blockPre gatePre
  simp only [ha, hb, hwx, hwh, hbias]

/-- The input gate's pre-activation computed from point `t`'s blocks at (p, s) is the array-level one at (r, q). -/
theorem gate_i_at (c : Dev nD) (t : Fin cfg0.N) (A : Inputs) (hF : Finds V c A) (p : Fin 512) (s : Fin 256) (r : Fin 4096) (q : Fin 2048)
    (hr : r.val = win0_15.index t (0 : Fin 2) * 512 + p.val) (hq : q.val = win0_15.index t (1 : Fin 2) * 256 + s.val) :
    blockPre (iblk0 V c 0 t) (iblk0 V c 1 t) (iblk0 V c 2 t) (iblk0 V c 6 t) (iblk0 V c 10 t) p s
      = gatePre A.x A.h A.Wxi A.Whi A.bi r q :=
  blockPre_eq (iblk0 V c 0 t) (iblk0 V c 1 t) (iblk0 V c 2 t) (iblk0 V c 6 t) (iblk0 V c 10 t) A.x A.h A.Wxi A.Whi A.bi p s r q
    (fun l => read_x V c t A.x hF.x p l r hr) (fun l => read_h V c t A.h hF.h p l r hr)
    (fun l => read_Wxi V c t A.Wxi hF.Wxi s l q hq) (fun l => read_Whi V c t A.Whi hF.Whi s l q hq)
    (read_bi V c t A.bi hF.bi s q hq)

/-- The forget gate's pre-activation computed from point `t`'s blocks at (p, s) is the array-level one at (r, q). -/
theorem gate_f_at (c : Dev nD) (t : Fin cfg0.N) (A : Inputs) (hF : Finds V c A) (p : Fin 512) (s : Fin 256) (r : Fin 4096) (q : Fin 2048)
    (hr : r.val = win0_15.index t (0 : Fin 2) * 512 + p.val) (hq : q.val = win0_15.index t (1 : Fin 2) * 256 + s.val) :
    blockPre (iblk0 V c 0 t) (iblk0 V c 1 t) (iblk0 V c 3 t) (iblk0 V c 7 t) (iblk0 V c 11 t) p s
      = gatePre A.x A.h A.Wxf A.Whf A.bf r q :=
  blockPre_eq (iblk0 V c 0 t) (iblk0 V c 1 t) (iblk0 V c 3 t) (iblk0 V c 7 t) (iblk0 V c 11 t) A.x A.h A.Wxf A.Whf A.bf p s r q
    (fun l => read_x V c t A.x hF.x p l r hr) (fun l => read_h V c t A.h hF.h p l r hr)
    (fun l => read_Wxf V c t A.Wxf hF.Wxf s l q hq) (fun l => read_Whf V c t A.Whf hF.Whf s l q hq)
    (read_bf V c t A.bf hF.bf s q hq)

/-- The candidate gate's pre-activation computed from point `t`'s blocks at (p, s) is the array-level one at (r, q). -/
theorem gate_c_at (c : Dev nD) (t : Fin cfg0.N) (A : Inputs) (hF : Finds V c A) (p : Fin 512) (s : Fin 256) (r : Fin 4096) (q : Fin 2048)
    (hr : r.val = win0_15.index t (0 : Fin 2) * 512 + p.val) (hq : q.val = win0_15.index t (1 : Fin 2) * 256 + s.val) :
    blockPre (iblk0 V c 0 t) (iblk0 V c 1 t) (iblk0 V c 4 t) (iblk0 V c 8 t) (iblk0 V c 12 t) p s
      = gatePre A.x A.h A.Wxc A.Whc A.bc r q :=
  blockPre_eq (iblk0 V c 0 t) (iblk0 V c 1 t) (iblk0 V c 4 t) (iblk0 V c 8 t) (iblk0 V c 12 t) A.x A.h A.Wxc A.Whc A.bc p s r q
    (fun l => read_x V c t A.x hF.x p l r hr) (fun l => read_h V c t A.h hF.h p l r hr)
    (fun l => read_Wxc V c t A.Wxc hF.Wxc s l q hq) (fun l => read_Whc V c t A.Whc hF.Whc s l q hq)
    (read_bc V c t A.bc hF.bc s q hq)

/-- The output gate's pre-activation computed from point `t`'s blocks at (p, s) is the array-level one at (r, q). -/
theorem gate_o_at (c : Dev nD) (t : Fin cfg0.N) (A : Inputs) (hF : Finds V c A) (p : Fin 512) (s : Fin 256) (r : Fin 4096) (q : Fin 2048)
    (hr : r.val = win0_15.index t (0 : Fin 2) * 512 + p.val) (hq : q.val = win0_15.index t (1 : Fin 2) * 256 + s.val) :
    blockPre (iblk0 V c 0 t) (iblk0 V c 1 t) (iblk0 V c 5 t) (iblk0 V c 9 t) (iblk0 V c 13 t) p s
      = gatePre A.x A.h A.Wxo A.Who A.bo r q :=
  blockPre_eq (iblk0 V c 0 t) (iblk0 V c 1 t) (iblk0 V c 5 t) (iblk0 V c 9 t) (iblk0 V c 13 t) A.x A.h A.Wxo A.Who A.bo p s r q
    (fun l => read_x V c t A.x hF.x p l r hr) (fun l => read_h V c t A.h hF.h p l r hr)
    (fun l => read_Wxo V c t A.Wxo hF.Wxo s l q hq) (fun l => read_Who V c t A.Who hF.Who s l q hq)
    (read_bo V c t A.bo hF.bo s q hq)

/-- Entry (p, s) of what point `t` stores into the new-hidden block is the new hidden state at (r, q). -/
theorem hidden_at (c : Dev nD) (t : Fin cfg0.N) (A : Inputs) (hF : Finds V c A) (p : Fin 512) (s : Fin 256) (r : Fin 4096) (q : Fin 2048)
    (hr : r.val = win0_15.index t (0 : Fin 2) * 512 + p.val) (hq : q.val = win0_15.index t (1 : Fin 2) * 256 + s.val) :
    out0_15 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (ix2 p s) = newHidden A (ix2 r q) := by
  refine (hiddenBlock_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) p s).trans ?_
  rw [gate_i_at V c t A hF p s r q hr hq, gate_f_at V c t A hF p s r q hr hq, gate_c_at V c t A hF p s r q hr hq,
    gate_o_at V c t A hF p s r q hr hq, read_cell V c t A.cell hF.cell p s r q hr hq]
  rfl

/-- Entry (p, s) of what point `t` stores into the new-cell block is the new cell state at (r, q). -/
theorem cell_at (c : Dev nD) (t : Fin cfg0.N) (A : Inputs) (hF : Finds V c A) (p : Fin 512) (s : Fin 256) (r : Fin 4096) (q : Fin 2048)
    (hr : r.val = win0_15.index t (0 : Fin 2) * 512 + p.val) (hq : q.val = win0_15.index t (1 : Fin 2) * 256 + s.val) :
    out0_16 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) (ix2 p s) = newCell A (ix2 r q) := by
  refine (cellBlock_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) p s).trans ?_
  rw [gate_i_at V c t A hF p s r q hr hq, gate_f_at V c t A hF p s r q hr hq, gate_c_at V c t A hF p s r q hr hq,
    read_cell V c t A.cell hF.cell p s r q hr hq]
  rfl

/-! ## What each point writes back, and the arrays after the run -/

/-- Point `t` writes back block `t` of the new hidden state. -/
theorem hidden_flushed (c : Dev nD) (t : Fin cfg0.N) (A : Inputs) (hF : Finds V c A) :
    (dat0 V c).flushed 15 t = ((cfg0.win 15).blk t).view.read (Elt Ideal) (newHidden A) := by
  show (cfg0.win 15).cut (grid0.coords t) ((dat0 V c).after 15 t) = _
  rw [after0_15]
  funext y
  rw [View.read_apply]
  have key : ∀ y : S512x256.Idx, out0_15 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) y = newHidden A (((cfg0.win 15).blk t).view.emb y) := by
    intro y
    obtain ⟨p, s, rfl⟩ : ∃ (p : Fin 512) (s : Fin 256), y = ix2 p s := ⟨y 0, y 1, eq_ix2 y⟩
    obtain ⟨b0, b1, e0, e1⟩ := idx_out t
    have hr' : win0_15.index t (0 : Fin 2) * 512 + p.val < 4096 := by have := p.isLt; omega
    have hq' : win0_15.index t (1 : Fin 2) * 256 + s.val < 2048 := by have := s.isLt; omega
    refine (hidden_at V c t A hF p s ⟨_, hr'⟩ ⟨_, hq'⟩ rfl rfl).trans (congrArg (newHidden A) ?_)
    funext a
    apply Fin.ext
    match a with
    | ⟨0, _⟩ => show win0_15.index t (0 : Fin 2) * 512 + p.val = win0_15.index t (0 : Fin 2) * 512 + 1 * p.val; omega
    | ⟨1, _⟩ => show win0_15.index t (1 : Fin 2) * 256 + s.val = win0_15.index t (1 : Fin 2) * 256 + 1 * s.val; omega
  exact key y

/-- Point `t` writes back block `t` of the new cell state. -/
theorem cell_flushed (c : Dev nD) (t : Fin cfg0.N) (A : Inputs) (hF : Finds V c A) :
    (dat0 V c).flushed 16 t = ((cfg0.win 16).blk t).view.read (Elt Ideal) (newCell A) := by
  show (cfg0.win 16).cut (grid0.coords t) ((dat0 V c).after 16 t) = _
  rw [after0_16]
  funext y
  rw [View.read_apply]
  have key : ∀ y : S512x256.Idx, out0_16 (F := Ideal) (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) (iblk0 V c 12 t) (iblk0 V c 13 t) (iblk0 V c 14 t) y = newCell A (((cfg0.win 16).blk t).view.emb y) := by
    intro y
    obtain ⟨p, s, rfl⟩ : ∃ (p : Fin 512) (s : Fin 256), y = ix2 p s := ⟨y 0, y 1, eq_ix2 y⟩
    obtain ⟨b0, b1, e0, e1⟩ := idx_out t
    have hr' : win0_15.index t (0 : Fin 2) * 512 + p.val < 4096 := by have := p.isLt; omega
    have hq' : win0_15.index t (1 : Fin 2) * 256 + s.val < 2048 := by have := s.isLt; omega
    refine (cell_at V c t A hF p s ⟨_, hr'⟩ ⟨_, hq'⟩ rfl rfl).trans (congrArg (newCell A) ?_)
    funext a
    apply Fin.ext
    match a with
    | ⟨0, _⟩ => show win0_15.index t (0 : Fin 2) * 512 + p.val = win0_16.index t (0 : Fin 2) * 512 + 1 * p.val; omega
    | ⟨1, _⟩ => show win0_15.index t (1 : Fin 2) * 256 + s.val = win0_16.index t (1 : Fin 2) * 256 + 1 * s.val; omega
  exact key y

/-- The blocks tile the array, so the first output array ends at the new hidden state. -/
theorem hidden_final (c : Dev nD) (A : Inputs) (hF : Finds V c A) : (dat0 (F := Ideal) V c).arrAt 15 cfg0.N = newHidden A :=
  (dat0 V c).arrAt_eq_of_cover 15 (newHidden A) (fun t _ => hidden_flushed V c t A hF) CellCover.hidden_cover

/-- And the second output array at the new cell state. -/
theorem cell_final (c : Dev nD) (A : Inputs) (hF : Finds V c A) : (dat0 (F := Ideal) V c).arrAt 16 cfg0.N = newCell A :=
  (dat0 V c).arrAt_eq_of_cover 16 (newCell A) (fun t _ => cell_flushed V c t A hF) CellCover.cell_cover

end Cert.KernelIdeal.CellBlocks

end
-- ==== Proof.ProjBody.lean ====
/-
  One row block of the output projection, read at an entry.

  The projection's body is handed a [512, 2048] block of the new hidden state, the whole [1024, 2048] weight matrix and
  the [1, 1024] bias row, and leaves in its [512, 1024] output block, at row p and column o,
      (sum over l < 2048 of hidden(p, l) * weight(o, l)) + bias(0, o):
  row p of the hidden block against row o of the weight matrix (both operands are contracted on their second axis), in
  the order of the contracted axis, plus the bias row's entry o repeated down the rows.
-/
import proofs.«105698_j43817256354365_1_alg».proof.Proof.Gen.KernelIdeal.Frame
import proofs.«105698_j43817256354365_1_alg».proof.Proof.Spec
import Idealize.ShloMosaic.Lib.Pipeline.Value
import Idealize.ShloMosaic.Lib.ValueIdx
import Idealize.ShloMosaic.PureOps.Ideal.Laws

noncomputable section

open Idealize.ShloMosaic Idealize.ShloMosaic.ValueIdx
open Cert.KernelIdeal Cert.KernelIdeal.Gen
open scoped BigOperators

namespace Cert.KernelIdeal.ProjBody

/-! ## The product's operand indices -/

/-- The left operand's row is the output's row. -/
theorem lhs_row (i : S512x1024.Idx) (q : dot_S512x2048_S1024x2048_S512x1024_1_1_0_0_n_n.contr.Idx) :
    (dot_S512x2048_S1024x2048_S512x1024_1_1_0_0_n_n.lhsIdx i q 0).val = (i 0).val := by
  unfold DotDims.lhsIdx
  rw [dif_neg (show ¬(0 : Fin S512x2048.rank) ∈ dot_S512x2048_S1024x2048_S512x1024_1_1_0_0_n_n.lhsBatch by decide),
    dif_pos (show (0 : Fin S512x2048.rank) ∈ dot_S512x2048_S1024x2048_S512x1024_1_1_0_0_n_n.lhsNonContracting by decide)]
  rfl

/-- The left operand's column is the contracted position. -/
theorem lhs_col (i : S512x1024.Idx) (q : dot_S512x2048_S1024x2048_S512x1024_1_1_0_0_n_n.contr.Idx) :
    (dot_S512x2048_S1024x2048_S512x1024_1_1_0_0_n_n.lhsIdx i q 1).val = (q ⟨0, by decide⟩).val :=
  dot_S512x2048_S1024x2048_S512x1024_1_1_0_0_n_n.lhsIdx_val_of_single rfl i q

/-- The right operand's row is the output's column. -/
theorem rhs_row (i : S512x1024.Idx) (q : dot_S512x2048_S1024x2048_S512x1024_1_1_0_0_n_n.contr.Idx) :
    (dot_S512x2048_S1024x2048_S512x1024_1_1_0_0_n_n.rhsIdx i q 0).val = (i 1).val := by
  unfold DotDims.rhsIdx
  rw [dif_neg (show ¬(0 : Fin S1024x2048.rank) ∈ dot_S512x2048_S1024x2048_S512x1024_1_1_0_0_n_n.rhsBatch by decide),
    dif_pos (show (0 : Fin S1024x2048.rank) ∈ dot_S512x2048_S1024x2048_S512x1024_1_1_0_0_n_n.rhsNonContracting by decide)]
  rfl

/-- The right operand's column is the contracted position. -/
theorem rhs_col (i : S512x1024.Idx) (q : dot_S512x2048_S1024x2048_S512x1024_1_1_0_0_n_n.contr.Idx) :
    (dot_S512x2048_S1024x2048_S512x1024_1_1_0_0_n_n.rhsIdx i q 1).val = (q ⟨0, by decide⟩).val :=
  dot_S512x2048_S1024x2048_S512x1024_1_1_0_0_n_n.rhsIdx_val_of_single rfl i q

/-! ## The product and the bias at an entry -/

/-- The product into the zero block at (p, o): row p of the left operand against row o of the right one. -/
theorem product_apply (a : FVec Ideal S512x2048 .bf16) (b : FVec Ideal S1024x2048 .bf16) (p : Fin 512) (o : Fin 1024) :
    matmul dot_S512x2048_S1024x2048_S512x1024_1_1_0_0_n_n none a b (constant (F := Ideal) S512x1024 .f32 0x00000000#32) (ix2 p o)
      = ∑ l : Fin 2048, a (ix2 p l) * b (ix2 o l) := by
  simp only [matmul]
  rw [Ideal.matmul_constant_zero_apply,
    ← Equiv.sum_comp (contrEquiv1 dot_S512x2048_S1024x2048_S512x1024_1_1_0_0_n_n 2048 rfl rfl).symm]
  refine Finset.sum_congr rfl fun k _ => ?_
  have hk := contrEquiv1_symm_val dot_S512x2048_S1024x2048_S512x1024_1_1_0_0_n_n 2048 rfl rfl k
  have el : dot_S512x2048_S1024x2048_S512x1024_1_1_0_0_n_n.lhsIdx (ix2 p o)
      ((contrEquiv1 dot_S512x2048_S1024x2048_S512x1024_1_1_0_0_n_n 2048 rfl rfl).symm k) = ix2 p k :=
    funext fun c => Fin.ext (by
      match c with
      | ⟨0, _⟩ => exact lhs_row _ _
      | ⟨1, _⟩ => exact (lhs_col _ _).trans hk)
  have er : dot_S512x2048_S1024x2048_S512x1024_1_1_0_0_n_n.rhsIdx (ix2 p o)
      ((contrEquiv1 dot_S512x2048_S1024x2048_S512x1024_1_1_0_0_n_n 2048 rfl rfl).symm k) = ix2 o k :=
    funext fun c => Fin.ext (by
      match c with
      | ⟨0, _⟩ => exact rhs_row _ _
      | ⟨1, _⟩ => exact (rhs_col _ _).trans hk)
  rw [el, er]

/-- The bias row repeated down the 512 rows, at (p, o), is the row's entry o. -/
theorem bias_apply (v : S1x1024.Idx → EReal) (p : Fin 512) (o : Fin 1024) :
    broadcastTo S512x1024 v broadcasts_S1x1024_S512x1024 (ix2 p o) = v (ix2 0 o) :=
  broadcastTo_apply v broadcasts_S1x1024_S512x1024 (ix2 p o) (ix2 0 o) (fun c => match c with
    | ⟨0, _⟩ => by show (0 : Nat) = if (1 : Nat) = 1 then 0 else p.val; rw [if_pos rfl]
    | ⟨1, _⟩ => by show o.val = if (1024 : Nat) = 1 then 0 else o.val; rw [if_neg (by decide)])

/-! ## The block the body leaves -/

variable (x0 : Vec Ideal S512x2048 .bf16) (x1 : Vec Ideal S1024x2048 .bf16) (x2 : Vec Ideal S1x1024 .f32)
  (p : Fin 512) (o : Fin 1024)

/-- The offsets of the body's whole-block accesses are all zero. -/
theorem zero_offsets : (![0, 0] : Fin 2 → Nat) = fun _ => 0 := funext fun a => by fin_cases a <;> rfl

/-- The output block at (p, o): row p of the hidden block against row o of the weights, plus the bias entry o. -/
theorem projBlock_apply :
    out1_3 (F := Ideal) x0 x1 x2 (ix2 p o) = (∑ l : Fin 2048, x0 (ix2 p l) * x1 (ix2 o l)) + x2 (ix2 0 o) := by
  unfold out1_3
  rw [View.canon_unit_zero zero_offsets]
  simp only [View.ld_unit_zero (S := S512x2048) zero_offsets, View.ld_unit_zero (S := S1024x2048) zero_offsets,
    View.ld_unit_zero (S := S1x1024) zero_offsets]
  unfold k1_pay1
  simp only [shapeCast_self]
  rw [addf_apply, product_apply, bias_apply]

end Cert.KernelIdeal.ProjBody

end
-- ==== Proof.ProjBlocks.lean ====
/-
  The output projection over its eight row blocks.

  The projection's grid has eight points. At point t the body is handed rows 512 t … 512 t + 511 of the new hidden
  state (a [512, 2048] block of the [4096, 2048] array), the whole [1024, 2048] weight matrix and the whole [1, 1024]
  bias row, and the block it leaves is written back to rows 512 t … 512 t + 511 of the [4096, 1024] output. Entry
  (p, o) of that block is row p of the hidden block against row o of the weights plus the bias entry o, that is,
  entry (512 t + p, o) of the projection of the whole arrays. The eight row blocks tile the output (row r lies in the
  block of point r / 512), so after the last point the output array is the projection.
-/
import proofs.«105698_j43817256354365_1_alg».proof.Proof.ProjBody
import proofs.«105698_j43817256354365_1_alg».proof.Proof.Gen.KernelIdeal.Frame
import proofs.«105698_j43817256354365_1_alg».proof.Proof.Gen.KernelIdeal.Points
import proofs.«105698_j43817256354365_1_alg».proof.Proof.Spec
import Idealize.ShloMosaic.Lib.Pipeline.Value

set_option maxRecDepth 16384

noncomputable section

open Idealize.ShloMosaic Idealize.ShloMosaic.TcCoe Idealize.ShloMosaic.ValueIdx
open Idealize.SL.Sem
open Idealize.ShloMosaic.Pipeline (Dat)
open Cert.KernelIdeal Cert.KernelIdeal.Gen Cert.LstmStep
open scoped BigOperators

namespace Cert.KernelIdeal.ProjBlocks

variable (V : (c : Dev nD) → (b : Ref sig .tc) → Buf (Elt Ideal) ((c : Thread nD τ).loc b))

/-! ## Where each window's block sits at a grid point -/

/-- At point t the hidden-state window and the output window are at row block t, column block 0; the weight and bias
    windows are at block (0, 0). -/
theorem block_indices : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- The hidden-state block at point t is rows 512 t … 512 t + 511 of the hidden-state array. -/
theorem hiddenBlock_apply (c : Dev nD) (t : Fin cfg1.N) (x : S512x2048.Idx) (k : S4096x2048.Idx)
    (hk0 : (k 0).val = 512 * t.val + (x 0).val) (hk1 : (k 1).val = (x 1).val) :
    (iblk1 V c 0 t : Vec Ideal S512x2048 .bf16) x = (V c main_v15 : S4096x2048.Idx → EReal) k := by
  obtain ⟨h0, h1, -⟩ := block_indices t
  unfold iblk1
  rw [View.read_apply]
  show V c main_v15 _ = V c main_v15 _
  refine congrArg _ ?_
  funext a
  apply Fin.ext
  match a with
  | ⟨0, _⟩ => show win1_0.index t 0 * 512 + 1 * (x 0).val = (k 0).val; rw [h0, hk0]; omega
  | ⟨1, _⟩ => show win1_0.index t 1 * 2048 + 1 * (x 1).val = (k 1).val; rw [h1, hk1]; omega

/-- The weight block at every point is the whole weight matrix. -/
theorem weightBlock_apply (c : Dev nD) (t : Fin cfg1.N) (x : S1024x2048.Idx) :
    (iblk1 V c 1 t : Vec Ideal S1024x2048 .bf16) x = (V c main_v16 : S1024x2048.Idx → EReal) x := by
  obtain ⟨-, -, h0, h1, -⟩ := block_indices t
  unfold iblk1
  rw [View.read_apply]
  show V c main_v16 _ = V c main_v16 _
  refine congrArg _ ?_
  funext a
  apply Fin.ext
  match a with
  | ⟨0, _⟩ => show win1_1.index t 0 * 1024 + 1 * (x 0).val = (x 0).val; rw [h0]; omega
  | ⟨1, _⟩ => show win1_1.index t 1 * 2048 + 1 * (x 1).val = (x 1).val; rw [h1]; omega

/-- The bias block at every point is the whole bias row. -/
theorem biasBlock_apply (c : Dev nD) (t : Fin cfg1.N) (x : S1x1024.Idx) :
    (iblk1 V c 2 t : Vec Ideal S1x1024 .f32) x = (V c main_v17 : S1x1024.Idx → EReal) x := by
  obtain ⟨-, -, -, -, h0, h1, -⟩ := block_indices t
  unfold iblk1
  rw [View.read_apply]
  show V c main_v17 _ = V c main_v17 _
  refine congrArg _ ?_
  funext a
  apply Fin.ext
  match a with
  | ⟨0, _⟩ => show win1_2.index t 0 * 1 + 1 * (x 0).val = (x 0).val; rw [h0]; omega
  | ⟨1, _⟩ => show win1_2.index t 1 * 1024 + 1 * (x 1).val = (x 1).val; rw [h1]; omega

/-! ## What one point writes back -/

/-- One entry of the block the body leaves from a hidden block that is rows 512 t … of nh, the weights Why and the bias
    bhy: at block entry y, which sits at array entry i = (512 t + y 0, y 1), it is the projection's entry i. -/
theorem rowBlock_entry (X0 : Vec Ideal S512x2048 .bf16) (X1 : Vec Ideal S1024x2048 .bf16) (X2 : Vec Ideal S1x1024 .f32)
    (nh : Mat 4096 2048) (Why : Mat 1024 2048) (bhy : Vect 1024) (t : Nat)
    (e0 : ∀ (p : Fin 512) (l : Fin 2048) (k : S4096x2048.Idx), (k 0).val = 512 * t + p.val → (k 1).val = l.val →
      X0 (ix2 p l) = nh k)
    (e1 : ∀ (o : Fin 1024) (l : Fin 2048), X1 (ix2 o l) = Why (ix2 o l))
    (e2 : ∀ o : Fin 1024, X2 (ix2 0 o) = bhy (ix1 o))
    (y : S512x1024.Idx) (i : S4096x1024.Idx) (hi0 : (i 0).val = 512 * t + (y 0).val) (hi1 : (i 1).val = (y 1).val) :
    out1_3 (F := Ideal) X0 X1 X2 y = project nh Why bhy i := by
  obtain ⟨p, o, rfl⟩ : ∃ (p : Fin 512) (o : Fin 1024), y = ix2 p o := ⟨y 0, y 1, eq_ix2 y⟩
  obtain ⟨r, o', rfl⟩ : ∃ (r : Fin 4096) (o' : Fin 1024), i = ix2 r o' := ⟨i 0, i 1, eq_ix2 i⟩
  have hr : r.val = 512 * t + p.val := hi0
  have ho : o' = o := Fin.ext hi1
  subst ho
  rw [ProjBody.projBlock_apply]
  show (∑ l : Fin 2048, X0 (ix2 p l) * X1 (ix2 o' l)) + X2 (ix2 0 o')
    = (∑ l : Fin 2048, nh (ix2 r l) * Why (ix2 o' l)) + bhy (ix1 o')
  rw [e2 o']
  refine congrArg (· + bhy (ix1 o')) (Finset.sum_congr rfl fun l _ => ?_)
  rw [e1 o' l, e0 p l (ix2 r l) hr rfl]

/-- What point t writes back is block t of the projection of the arrays the region is entered with. -/
theorem rowBlock_flushed (c : Dev nD) (nh : Mat 4096 2048) (Why : Mat 1024 2048) (bhy : Vect 1024)
    (h15 : (V c main_v15 : S4096x2048.Idx → EReal) = nh) (h16 : (V c main_v16 : S1024x2048.Idx → EReal) = Why)
    (h17 : ∀ o : Fin 1024, (V c main_v17 : S1x1024.Idx → EReal) (ix2 0 o) = bhy (ix1 o)) (t : Fin cfg1.N) :
    (dat1 (F := Ideal) V c).flushed 3 t = ((cfg1.win 3).blk t).view.read (Elt Ideal) (project nh Why bhy) := by
  show (cfg1.win 3).cut (grid1.coords t) ((dat1 V c).after 3 t) = _
  rw [after1_3]
  obtain ⟨-, -, -, -, -, -, h0, h1⟩ := block_indices t
  funext y
  rw [View.read_apply]
  show out1_3 (F := Ideal) (iblk1 V c 0 t) (iblk1 V c 1 t) (iblk1 V c 2 t) y
    = project nh Why bhy (((cfg1.win 3).blk t).view.emb y)
  refine rowBlock_entry (iblk1 V c 0 t) (iblk1 V c 1 t) (iblk1 V c 2 t) nh Why bhy t.val ?_ ?_ ?_ y _ ?_ ?_
  · intro p l k hk0 hk1
    rw [← h15]
    exact hiddenBlock_apply V c t (ix2 p l) k hk0 hk1
  · intro o l
    rw [← h16]
    exact weightBlock_apply V c t (ix2 o l)
  · intro o
    rw [← h17 o]
    exact biasBlock_apply V c t (ix2 0 o)
  · show win1_3.index t 0 * 512 + 1 * (y 0).val = 512 * t.val + (y 0).val
    rw [h0]; omega
  · show win1_3.index t 1 * 1024 + 1 * (y 1).val = (y 1).val
    rw [h1]; omega

/-! ## The row blocks tile the output -/

/-- An entry of the output array is in point t's block iff each coordinate is in the block's range on its axis. -/
theorem mem_rowBlock (t : Fin cfg1.N) (i : S4096x1024.Idx) :
    i ∈ ((cfg1.win 3).blk t).view.set ↔ ∀ a : Fin 2, win1_3.index t a * S512x1024.size a ≤ (i a).val
      ∧ (i a).val < win1_3.index t a * S512x1024.size a + S512x1024.size a := by
  show i ∈ ((View.whole main_v18).slice (win1_3.rect t)).set ↔ _
  rw [View.set_slice_whole, Rect.mem_set_unit]
  exact Iff.rfl

/-- Every entry of the output array is in the block of a point that writes back: row r is in the block of point
    r / 512. -/
theorem rowBlocks_cover (i : S4096x1024.Idx) :
    ∃ t : Fin cfg1.N, (cfg1.win 3).flush t = true ∧ i ∈ ((cfg1.win 3).blk t).view.set := by
  have hi0 : (i 0).val < 4096 := (i 0).isLt
  have hi1 : (i 1).val < 1024 := (i 1).isLt
  have hN : cfg1.N = 8 := N_1
  obtain ⟨t, ht⟩ : ∃ t : Fin cfg1.N, t.val = (i 0).val / 512 := ⟨⟨(i 0).val / 512, by rw [hN]; omega⟩, rfl⟩
  obtain ⟨-, -, -, -, -, -, h0, h1⟩ := block_indices t
  refine ⟨t, flush1_3 t, ?_⟩
  rw [mem_rowBlock]
  intro a
  match a with
  | ⟨0, _⟩ =>
    show win1_3.index t (0 : Fin 2) * 512 ≤ (i 0).val ∧ (i 0).val < win1_3.index t (0 : Fin 2) * 512 + 512
    rw [h0, ht]; omega
  | ⟨1, _⟩ =>
    show win1_3.index t (1 : Fin 2) * 1024 ≤ (i 1).val ∧ (i 1).val < win1_3.index t (1 : Fin 2) * 1024 + 1024
    rw [h1]; omega

/-! ## The output array after the region -/

/-- Entered with the hidden state nh, the weights Why and the bias row bhy in its three input arrays, the region leaves
    the projection of nh by Why and bhy in its output array. -/
theorem proj_final (c : Dev nD) (nh : Mat 4096 2048) (Why : Mat 1024 2048) (bhy : Vect 1024)
    (h15 : (V c main_v15 : S4096x2048.Idx → EReal) = nh) (h16 : (V c main_v16 : S1024x2048.Idx → EReal) = Why)
    (h17 : ∀ o : Fin 1024, (V c main_v17 : S1x1024.Idx → EReal) (ix2 0 o) = bhy (ix1 o)) :
    (dat1 (F := Ideal) V c).arrAt 3 cfg1.N = project nh Why bhy :=
  (dat1 V c).arrAt_eq_of_cover 3 (project nh Why bhy)
    (fun t _ => rowBlock_flushed V c nh Why bhy h15 h16 h17 t) rowBlocks_cover

end Cert.KernelIdeal.ProjBlocks

end
-- ==== Proof.KernelStep.lean ====
/-
  The idealized kernel's run computes the specification's LSTM step.

  The first region finds, in its fifteen input arrays, the arguments themselves (a change of float format is the
  identity on the extended reals) and each gate's bias as one row; so its two output arrays end at the specification's
  new hidden state and new cell state of the arguments.  The second region finds that new hidden state, the projection
  matrix and the projection bias as one row; so its output array ends at the projection of the new hidden state, which
  is the specification's output.  Nothing after each region writes these three arrays, and no segment writes an
  argument, so the final memory holds the three results and the seventeen arguments as launched.
-/
import proofs.«105698_j43817256354365_1_alg».proof.Proof.KernelRun
import proofs.«105698_j43817256354365_1_alg».proof.Proof.CellBlocks
import proofs.«105698_j43817256354365_1_alg».proof.Proof.ProjBlocks

set_option maxRecDepth 16384

noncomputable section

namespace Cert.KernelIdeal.Step

open Cert.KernelIdeal Cert.KernelIdeal.Gen Cert.LstmStep
open Cert.KernelIdeal.StepRun Cert.KernelIdeal.StepEntry
open Idealize.ShloMosaic Idealize.ShloMosaic.TcCoe Idealize.ShloMosaic.ValueIdx
open Idealize.SL Idealize.SL.Sem

variable (m : (ℓ : Loc nD τ sig) → Buf (Elt Ideal) ℓ) (ρ : Dev nD → PrngReg)

/-- What the first region finds in its input arrays, against the launch arguments of core `c`. -/
theorem finds (c : Dev nD) : CellBlocks.Finds (V1 m ρ) c (inputsOf m c) where
  x := entry_x m ρ c
  h := entry_h m ρ c
  Wxi := entry_Wxi m ρ c
  Wxf := entry_Wxf m ρ c
  Wxc := entry_Wxc m ρ c
  Wxo := entry_Wxo m ρ c
  Whi := entry_Whi m ρ c
  Whf := entry_Whf m ρ c
  Whc := entry_Whc m ρ c
  Who := entry_Who m ρ c
  bi := entry_bi m ρ c
  bf := entry_bf m ρ c
  bc := entry_bc m ρ c
  bo := entry_bo m ρ c
  cell := entry_cell m ρ c

/-- The first region leaves the new hidden state of the arguments in its first output array … -/
theorem hidden_final (c : Dev nD) : (dat0 (F := Ideal) (V1 m ρ) c).arrAt 15 cfg0.N = newHidden (inputsOf m c) :=
  CellBlocks.hidden_final (V1 m ρ) c (inputsOf m c) (finds m ρ c)

/-- … and the new cell state in its second. -/
theorem cell_final (c : Dev nD) : (dat0 (F := Ideal) (V1 m ρ) c).arrAt 16 cfg0.N = newCell (inputsOf m c) :=
  CellBlocks.cell_final (V1 m ρ) c (inputsOf m c) (finds m ρ c)

/-- The second region, entered with that new hidden state, the projection matrix and the projection bias, leaves the
    step's output in its output array. -/
theorem output_final (c : Dev nD) : (dat1 (F := Ideal) (V3 m ρ) c).arrAt 3 cfg1.N = output (inputsOf m c) :=
  ProjBlocks.proj_final (V3 m ρ) c (newHidden (inputsOf m c)) (inputsOf m c).Why (inputsOf m c).bhy
    ((proj_entry_hidden m ρ c).trans (hidden_final m ρ c)) (proj_entry_Why m ρ c) (proj_entry_bias m ρ c)

/-- Every weakly fair execution of @main terminates without a fault, and in every final state each core holds the
    step's output, new hidden state and new cell state of its launch arguments, and those arguments unchanged. -/
theorem run_step : θ_run defs (onTc (τ := τ) (main (F := Ideal))) ⟨m, fun _ => 0, ρ⟩ (fun r => ∀ c : Dev nD,
      r.2.mem ((c.tc : Thread nD τ).loc main_v18) = output (inputsOf m c)
      ∧ r.2.mem ((c.tc : Thread nD τ).loc main_v14_0) = newHidden (inputsOf m c)
      ∧ r.2.mem ((c.tc : Thread nD τ).loc main_v14_1) = newCell (inputsOf m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c =>
    ⟨(h c _ (mem_uc main_v18 (by decide))).trans ((output_contents m ρ c).trans (output_final m ρ c)),
     (h c _ (mem_uc main_v14_0 (by decide))).trans ((hidden_contents m ρ c).trans (hidden_final m ρ c)),
     (h c _ (mem_uc main_v14_1 (by decide))).trans ((cell_contents m ρ c).trans (cell_final m ρ c)),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c),
     (h c _ (mem_uc main_arg7 (by decide))).trans (W4_main_arg7 m ρ c),
     (h c _ (mem_uc main_arg8 (by decide))).trans (W4_main_arg8 m ρ c),
     (h c _ (mem_uc main_arg9 (by decide))).trans (W4_main_arg9 m ρ c),
     (h c _ (mem_uc main_arg10 (by decide))).trans (W4_main_arg10 m ρ c),
     (h c _ (mem_uc main_arg11 (by decide))).trans (W4_main_arg11 m ρ c),
     (h c _ (mem_uc main_arg12 (by decide))).trans (W4_main_arg12 m ρ c),
     (h c _ (mem_uc main_arg13 (by decide))).trans (W4_main_arg13 m ρ c),
     (h c _ (mem_uc main_arg14 (by decide))).trans (W4_main_arg14 m ρ c),
     (h c _ (mem_uc main_arg15 (by decide))).trans (W4_main_arg15 m ρ c),
     (h c _ (mem_uc main_arg16 (by decide))).trans (W4_main_arg16 m ρ c)⟩)
    (run_contents m ρ)

end Cert.KernelIdeal.Step

end
-- ==== Proof.RefGates.lean ====
/-
  The reference's stacked pre-activations are the four gates' own.

  The reference stacks the four gates' input weights into one [8192, 1024] matrix, their hidden weights into one
  [8192, 2048] matrix and their biases into one vector of 8192 entries (input, forget, candidate, output gate in that
  order, 2048 rows each), forms the [4096, 8192] array
      gates(r, c) = (sum over l < 1024 of x(r, l) * Wx(c, l)  +  sum over l < 2048 of h(r, l) * Wh(c, l)) + bx(c),
  and cuts it into four blocks of 2048 columns. Stacked row 2048 * g + q is row q of gate g's own matrix, so column
  2048 * g + q of `gates` is gate g's pre-activation at hidden unit q: the same products summed over the same index in
  the same order as in the specification, so nothing is rearranged and no entry needs to be finite.
-/
import proofs.«105698_j43817256354365_1_alg».proof.Proof.Gen.ReferenceIdeal.Read
import proofs.«105698_j43817256354365_1_alg».proof.Proof.Spec
import Idealize.ShloMosaic.Lib.Pipeline.Value
import Idealize.ShloMosaic.Lib.ValueIdx

noncomputable section

namespace Cert.ReferenceIdeal.RefStep

open Cert.ReferenceIdeal Cert.ReferenceIdeal.Gen Cert.ReferenceIdeal.Read Cert.LstmStep
open Idealize.ShloMosaic Idealize.ShloMosaic.ValueIdx
open scoped BigOperators

/-! ## The three stackings, read piece by piece

Each of the three stacked arrays lays its four pieces end to end along the rows: stacked row `2048 * g + q` is row `q` of
piece `g`, the other coordinate unchanged. The index of the stacked array is named by the caller through its coordinates. -/

/-- Stacked row `q` is row `q` of the first piece. -/
theorem wx_piece0 (w0 w1 w2 w3 : Mat 2048 1024) (j : S8192x1024.Idx) (q : Fin 2048) (l : Fin 1024)
    (h0 : (j 0).val = q.val) (h1 : (j 1).val = l.val) :
    val_main_v0 (F := Ideal) w0 w1 w2 w3 j = w0 (ix2 q l) := by
  unfold val_main_v0
  exact concatenate_apply_piece (0 : Fin S8192x1024.rank) _ _ j 0 (by simp) S2048x1024 w0 rfl rfl 0 rfl (ix2 q l)
    (fun b hb => match b, hb with | ⟨0, _⟩, hb => absurd rfl hb | ⟨1, _⟩, _ => h1.symm) ((Nat.zero_add _).trans h0.symm)

/-- Stacked row `2048 + q` is row `q` of the second piece. -/
theorem wx_piece1 (w0 w1 w2 w3 : Mat 2048 1024) (j : S8192x1024.Idx) (q : Fin 2048) (l : Fin 1024)
    (h0 : (j 0).val = 2048 + q.val) (h1 : (j 1).val = l.val) :
    val_main_v0 (F := Ideal) w0 w1 w2 w3 j = w1 (ix2 q l) := by
  unfold val_main_v0
  exact concatenate_apply_piece (0 : Fin S8192x1024.rank) _ _ j 1 (by simp) S2048x1024 w1 rfl rfl 2048 rfl (ix2 q l)
    (fun b hb => match b, hb with | ⟨0, _⟩, hb => absurd rfl hb | ⟨1, _⟩, _ => h1.symm) h0.symm

/-- Stacked row `4096 + q` is row `q` of the third piece. -/
theorem wx_piece2 (w0 w1 w2 w3 : Mat 2048 1024) (j : S8192x1024.Idx) (q : Fin 2048) (l : Fin 1024)
    (h0 : (j 0).val = 4096 + q.val) (h1 : (j 1).val = l.val) :
    val_main_v0 (F := Ideal) w0 w1 w2 w3 j = w2 (ix2 q l) := by
  unfold val_main_v0
  exact concatenate_apply_piece (0 : Fin S8192x1024.rank) _ _ j 2 (by simp) S2048x1024 w2 rfl rfl 4096 rfl (ix2 q l)
    (fun b hb => match b, hb with | ⟨0, _⟩, hb => absurd rfl hb | ⟨1, _⟩, _ => h1.symm) h0.symm

/-- Stacked row `6144 + q` is row `q` of the fourth piece. -/
theorem wx_piece3 (w0 w1 w2 w3 : Mat 2048 1024) (j : S8192x1024.Idx) (q : Fin 2048) (l : Fin 1024)
    (h0 : (j 0).val = 6144 + q.val) (h1 : (j 1).val = l.val) :
    val_main_v0 (F := Ideal) w0 w1 w2 w3 j = w3 (ix2 q l) := by
  unfold val_main_v0
  exact concatenate_apply_piece (0 : Fin S8192x1024.rank) _ _ j 3 (by simp) S2048x1024 w3 rfl rfl 6144 rfl (ix2 q l)
    (fun b hb => match b, hb with | ⟨0, _⟩, hb => absurd rfl hb | ⟨1, _⟩, _ => h1.symm) h0.symm

/-- Stacked row `q` is row `q` of the first piece. -/
theorem wh_piece0 (w0 w1 w2 w3 : Mat 2048 2048) (j : S8192x2048.Idx) (q : Fin 2048) (l : Fin 2048)
    (h0 : (j 0).val = q.val) (h1 : (j 1).val = l.val) :
    val_main_v1 (F := Ideal) w0 w1 w2 w3 j = w0 (ix2 q l) := by
  unfold val_main_v1
  exact concatenate_apply_piece (0 : Fin S8192x2048.rank) _ _ j 0 (by simp) S2048x2048 w0 rfl rfl 0 rfl (ix2 q l)
    (fun b hb => match b, hb with | ⟨0, _⟩, hb => absurd rfl hb | ⟨1, _⟩, _ => h1.symm) ((Nat.zero_add _).trans h0.symm)

/-- Stacked row `2048 + q` is row `q` of the second piece. -/
theorem wh_piece1 (w0 w1 w2 w3 : Mat 2048 2048) (j : S8192x2048.Idx) (q : Fin 2048) (l : Fin 2048)
    (h0 : (j 0).val = 2048 + q.val) (h1 : (j 1).val = l.val) :
    val_main_v1 (F := Ideal) w0 w1 w2 w3 j = w1 (ix2 q l) := by
  unfold val_main_v1
  exact concatenate_apply_piece (0 : Fin S8192x2048.rank) _ _ j 1 (by simp) S2048x2048 w1 rfl rfl 2048 rfl (ix2 q l)
    (fun b hb => match b, hb with | ⟨0, _⟩, hb => absurd rfl hb | ⟨1, _⟩, _ => h1.symm) h0.symm

/-- Stacked row `4096 + q` is row `q` of the third piece. -/
theorem wh_piece2 (w0 w1 w2 w3 : Mat 2048 2048) (j : S8192x2048.Idx) (q : Fin 2048) (l : Fin 2048)
    (h0 : (j 0).val = 4096 + q.val) (h1 : (j 1).val = l.val) :
    val_main_v1 (F := Ideal) w0 w1 w2 w3 j = w2 (ix2 q l) := by
  unfold val_main_v1
  exact concatenate_apply_piece (0 : Fin S8192x2048.rank) _ _ j 2 (by simp) S2048x2048 w2 rfl rfl 4096 rfl (ix2 q l)
    (fun b hb => match b, hb with | ⟨0, _⟩, hb => absurd rfl hb | ⟨1, _⟩, _ => h1.symm) h0.symm

/-- Stacked row `6144 + q` is row `q` of the fourth piece. -/
theorem wh_piece3 (w0 w1 w2 w3 : Mat 2048 2048) (j : S8192x2048.Idx) (q : Fin 2048) (l : Fin 2048)
    (h0 : (j 0).val = 6144 + q.val) (h1 : (j 1).val = l.val) :
    val_main_v1 (F := Ideal) w0 w1 w2 w3 j = w3 (ix2 q l) := by
  unfold val_main_v1
  exact concatenate_apply_piece (0 : Fin S8192x2048.rank) _ _ j 3 (by simp) S2048x2048 w3 rfl rfl 6144 rfl (ix2 q l)
    (fun b hb => match b, hb with | ⟨0, _⟩, hb => absurd rfl hb | ⟨1, _⟩, _ => h1.symm) h0.symm

/-- Stacked bias entry `q` is entry `q` of the first piece. -/
theorem b_piece0 (w0 w1 w2 w3 : Vect 2048) (j : S8192.Idx) (q : Fin 2048) (h0 : (j 0).val = q.val) :
    val_main_v2 (F := Ideal) w0 w1 w2 w3 j = w0 (ix1 q) := by
  unfold val_main_v2
  exact concatenate_apply_piece (0 : Fin S8192.rank) _ _ j 0 (by simp) S2048 w0 rfl rfl 0 rfl (ix1 q)
    (fun b hb => match b, hb with | ⟨0, _⟩, hb => absurd rfl hb) ((Nat.zero_add _).trans h0.symm)

/-- Stacked bias entry `2048 + q` is entry `q` of the second piece. -/
theorem b_piece1 (w0 w1 w2 w3 : Vect 2048) (j : S8192.Idx) (q : Fin 2048) (h0 : (j 0).val = 2048 + q.val) :
    val_main_v2 (F := Ideal) w0 w1 w2 w3 j = w1 (ix1 q) := by
  unfold val_main_v2
  exact concatenate_apply_piece (0 : Fin S8192.rank) _ _ j 1 (by simp) S2048 w1 rfl rfl 2048 rfl (ix1 q)
    (fun b hb => match b, hb with | ⟨0, _⟩, hb => absurd rfl hb) h0.symm

/-- Stacked bias entry `4096 + q` is entry `q` of the third piece. -/
theorem b_piece2 (w0 w1 w2 w3 : Vect 2048) (j : S8192.Idx) (q : Fin 2048) (h0 : (j 0).val = 4096 + q.val) :
    val_main_v2 (F := Ideal) w0 w1 w2 w3 j = w2 (ix1 q) := by
  unfold val_main_v2
  exact concatenate_apply_piece (0 : Fin S8192.rank) _ _ j 2 (by simp) S2048 w2 rfl rfl 4096 rfl (ix1 q)
    (fun b hb => match b, hb with | ⟨0, _⟩, hb => absurd rfl hb) h0.symm

/-- Stacked bias entry `6144 + q` is entry `q` of the fourth piece. -/
theorem b_piece3 (w0 w1 w2 w3 : Vect 2048) (j : S8192.Idx) (q : Fin 2048) (h0 : (j 0).val = 6144 + q.val) :
    val_main_v2 (F := Ideal) w0 w1 w2 w3 j = w3 (ix1 q) := by
  unfold val_main_v2
  exact concatenate_apply_piece (0 : Fin S8192.rank) _ _ j 3 (by simp) S2048 w3 rfl rfl 6144 rfl (ix1 q)
    (fun b hb => match b, hb with | ⟨0, _⟩, hb => absurd rfl hb) h0.symm

/-! ## The stacked pre-activations

Entry `j` of the [4096, 8192] array of all four gates' pre-activations: row `j 0` of `x` against stacked input-weight row
`j 1`, plus row `j 0` of `h` against stacked hidden-weight row `j 1`, plus stacked bias entry `j 1`. -/

theorem gates_read (x : Mat 4096 1024) (h : Mat 4096 2048) (wx0 : Mat 2048 1024) (b0 : Vect 2048) (wh0 : Mat 2048 2048)
    (wx1 : Mat 2048 1024) (b1 : Vect 2048) (wh1 : Mat 2048 2048) (wx2 : Mat 2048 1024) (b2 : Vect 2048) (wh2 : Mat 2048 2048)
    (wx3 : Mat 2048 1024) (b3 : Vect 2048) (wh3 : Mat 2048 2048) (j : S4096x8192.Idx) :
    val_main_v10 (F := Ideal) x h wx0 b0 wh0 wx1 b1 wh1 wx2 b2 wh2 wx3 b3 wh3 j
      = pre (∑ k : Fin 1024, x (lidx_main_v4 j k) * val_main_v0 (F := Ideal) wx0 wx1 wx2 wx3 (idx_main_v3 (ridx_main_v4 j k)))
          (∑ k : Fin 2048, h (lidx_main_v6 j k) * val_main_v1 (F := Ideal) wh0 wh1 wh2 wh3 (idx_main_v5 (ridx_main_v6 j k)))
          (val_main_v2 (F := Ideal) b0 b1 b2 b3 (idx_main_v8 (idx_main_v9 j))) := by
  rw [val_main_v10_apply, val_main_v7_apply, val_main_v4_apply, val_main_v6_apply, val_main_v9_apply, val_main_v8_apply]
  simp only [val_main_v3_apply, val_main_v5_apply]
  rfl

/-- One gate's pre-activation from the stacked array: if, at stacked row `j 1`, the three stackings read row `q` of `Wx`,
    row `q` of `Wh` and entry `q` of `b`, then entry `j` with `j 0 = r` is that gate's pre-activation at `(r, q)`. -/
theorem gate_of_pieces (x : Mat 4096 1024) (h : Mat 4096 2048) (wx0 : Mat 2048 1024) (b0 : Vect 2048) (wh0 : Mat 2048 2048)
    (wx1 : Mat 2048 1024) (b1 : Vect 2048) (wh1 : Mat 2048 2048) (wx2 : Mat 2048 1024) (b2 : Vect 2048) (wh2 : Mat 2048 2048)
    (wx3 : Mat 2048 1024) (b3 : Vect 2048) (wh3 : Mat 2048 2048) (j : S4096x8192.Idx) (r : Fin 4096) (q : Fin 2048) (h0 : (j 0).val = r.val)
    (Wx : Mat 2048 1024) (Wh : Mat 2048 2048) (b : Vect 2048)
    (hx : ∀ (m : S8192x1024.Idx) (l : Fin 1024), (m 0).val = (j 1).val → (m 1).val = l.val →
      val_main_v0 (F := Ideal) wx0 wx1 wx2 wx3 m = Wx (ix2 q l))
    (hh : ∀ (m : S8192x2048.Idx) (l : Fin 2048), (m 0).val = (j 1).val → (m 1).val = l.val →
      val_main_v1 (F := Ideal) wh0 wh1 wh2 wh3 m = Wh (ix2 q l))
    (hb : ∀ (m : S8192.Idx), (m 0).val = (j 1).val → val_main_v2 (F := Ideal) b0 b1 b2 b3 m = b (ix1 q)) :
    val_main_v10 (F := Ideal) x h wx0 b0 wh0 wx1 b1 wh1 wx2 b2 wh2 wx3 b3 wh3 j = gatePre x h Wx Wh b r q := by
  rw [gates_read]
  unfold gatePre
  have ex : ∀ k : Fin 1024, lidx_main_v4 j k = ix2 r k := fun k => funext fun a => Fin.ext (by
    match a with
    | ⟨0, _⟩ => exact h0
    | ⟨1, _⟩ => rfl)
  have eh : ∀ k : Fin 2048, lidx_main_v6 j k = ix2 r k := fun k => funext fun a => Fin.ext (by
    match a with
    | ⟨0, _⟩ => exact h0
    | ⟨1, _⟩ => rfl)
  congr 1
  · refine Finset.sum_congr rfl fun k _ => ?_
    rw [ex k, hx _ k rfl rfl]
  · refine Finset.sum_congr rfl fun k _ => ?_
    rw [eh k, hh _ k rfl rfl]
  · exact hb _ rfl

/-- The input gate's slice (columns 0 … 2047) at `(r, q)` is that gate's pre-activation. -/
theorem gate0_eq (x : Mat 4096 1024) (h : Mat 4096 2048) (wx0 : Mat 2048 1024) (b0 : Vect 2048) (wh0 : Mat 2048 2048)
    (wx1 : Mat 2048 1024) (b1 : Vect 2048) (wh1 : Mat 2048 2048) (wx2 : Mat 2048 1024) (b2 : Vect 2048) (wh2 : Mat 2048 2048)
    (wx3 : Mat 2048 1024) (b3 : Vect 2048) (wh3 : Mat 2048 2048) (r : Fin 4096) (q : Fin 2048) :
    val_main_v11 (F := Ideal) x h wx0 b0 wh0 wx1 b1 wh1 wx2 b2 wh2 wx3 b3 wh3 (ix2 r q) = gatePre x h wx0 wh0 b0 r q := by
  rw [val_main_v11_apply]
  exact gate_of_pieces x h wx0 b0 wh0 wx1 b1 wh1 wx2 b2 wh2 wx3 b3 wh3 _ r q rfl wx0 wh0 b0
    (fun m l e0 e1 => wx_piece0 wx0 wx1 wx2 wx3 m q l e0 e1)
    (fun m l e0 e1 => wh_piece0 wh0 wh1 wh2 wh3 m q l e0 e1)
    (fun m e0 => b_piece0 b0 b1 b2 b3 m q e0)

/-- The forget gate's slice (columns 2048 … 4095) at `(r, q)` is that gate's pre-activation. -/
theorem gate1_eq (x : Mat 4096 1024) (h : Mat 4096 2048) (wx0 : Mat 2048 1024) (b0 : Vect 2048) (wh0 : Mat 2048 2048)
    (wx1 : Mat 2048 1024) (b1 : Vect 2048) (wh1 : Mat 2048 2048) (wx2 : Mat 2048 1024) (b2 : Vect 2048) (wh2 : Mat 2048 2048)
    (wx3 : Mat 2048 1024) (b3 : Vect 2048) (wh3 : Mat 2048 2048) (r : Fin 4096) (q : Fin 2048) :
    val_main_v12 (F := Ideal) x h wx0 b0 wh0 wx1 b1 wh1 wx2 b2 wh2 wx3 b3 wh3 (ix2 r q) = gatePre x h wx1 wh1 b1 r q := by
  rw [val_main_v12_apply]
  exact gate_of_pieces x h wx0 b0 wh0 wx1 b1 wh1 wx2 b2 wh2 wx3 b3 wh3 _ r q rfl wx1 wh1 b1
    (fun m l e0 e1 => wx_piece1 wx0 wx1 wx2 wx3 m q l e0 e1)
    (fun m l e0 e1 => wh_piece1 wh0 wh1 wh2 wh3 m q l e0 e1)
    (fun m e0 => b_piece1 b0 b1 b2 b3 m q e0)

/-- The candidate gate's slice (columns 4096 … 6143) at `(r, q)` is that gate's pre-activation. -/
theorem gate2_eq (x : Mat 4096 1024) (h : Mat 4096 2048) (wx0 : Mat 2048 1024) (b0 : Vect 2048) (wh0 : Mat 2048 2048)
    (wx1 : Mat 2048 1024) (b1 : Vect 2048) (wh1 : Mat 2048 2048) (wx2 : Mat 2048 1024) (b2 : Vect 2048) (wh2 : Mat 2048 2048)
    (wx3 : Mat 2048 1024) (b3 : Vect 2048) (wh3 : Mat 2048 2048) (r : Fin 4096) (q : Fin 2048) :
    val_main_v13 (F := Ideal) x h wx0 b0 wh0 wx1 b1 wh1 wx2 b2 wh2 wx3 b3 wh3 (ix2 r q) = gatePre x h wx2 wh2 b2 r q := by
  rw [val_main_v13_apply]
  exact gate_of_pieces x h wx0 b0 wh0 wx1 b1 wh1 wx2 b2 wh2 wx3 b3 wh3 _ r q rfl wx2 wh2 b2
    (fun m l e0 e1 => wx_piece2 wx0 wx1 wx2 wx3 m q l e0 e1)
    (fun m l e0 e1 => wh_piece2 wh0 wh1 wh2 wh3 m q l e0 e1)
    (fun m e0 => b_piece2 b0 b1 b2 b3 m q e0)

/-- The output gate's slice (columns 6144 … 8191) at `(r, q)` is that gate's pre-activation. -/
theorem gate3_eq (x : Mat 4096 1024) (h : Mat 4096 2048) (wx0 : Mat 2048 1024) (b0 : Vect 2048) (wh0 : Mat 2048 2048)
    (wx1 : Mat 2048 1024) (b1 : Vect 2048) (wh1 : Mat 2048 2048) (wx2 : Mat 2048 1024) (b2 : Vect 2048) (wh2 : Mat 2048 2048)
    (wx3 : Mat 2048 1024) (b3 : Vect 2048) (wh3 : Mat 2048 2048) (r : Fin 4096) (q : Fin 2048) :
    val_main_v14 (F := Ideal) x h wx0 b0 wh0 wx1 b1 wh1 wx2 b2 wh2 wx3 b3 wh3 (ix2 r q) = gatePre x h wx3 wh3 b3 r q := by
  rw [val_main_v14_apply]
  exact gate_of_pieces x h wx0 b0 wh0 wx1 b1 wh1 wx2 b2 wh2 wx3 b3 wh3 _ r q rfl wx3 wh3 b3
    (fun m l e0 e1 => wx_piece3 wx0 wx1 wx2 wx3 m q l e0 e1)
    (fun m l e0 e1 => wh_piece3 wh0 wh1 wh2 wh3 m q l e0 e1)
    (fun m e0 => b_piece3 b0 b1 b2 b3 m q e0)

end Cert.ReferenceIdeal.RefStep

end
-- ==== Proof.RefStep.lean ====
/-
  The reference program computes the specification's LSTM step.

  Each of the four column blocks of the reference's stacked pre-activations is one gate's pre-activation (the module
  this one imports). The reference's sigmoid is written 1 / (1 + exp (-g)) with the literal one, which is the logistic
  function by definition; the new cell state sigma(g_f) * cell + sigma(g_i) * tanh(g_c) and the new hidden state
  sigma(g_o) * tanh(new cell) are then pointwise the specification's. The output is row r of the new hidden state
  against row o of `Why`, summed over the 2048 hidden units in index order, plus entry o of the bias: the specification's
  own sum, term by term.
-/
import proofs.«105698_j43817256354365_1_alg».proof.Proof.RefGates
import proofs.«105698_j43817256354365_1_alg».proof.Proof.Gen.ReferenceIdeal.Read
import proofs.«105698_j43817256354365_1_alg».proof.Proof.Spec
import Idealize.ShloMosaic.Lib.Pipeline.Value
import Idealize.ShloMosaic.Lib.ValueIdx
import Idealize.ShloMosaic.Lib.IdealHost
import Idealize.ShloMosaic.PureOps.Ideal.Laws

noncomputable section

namespace Cert.ReferenceIdeal.RefStep

open Cert.ReferenceIdeal Cert.ReferenceIdeal.Gen Cert.ReferenceIdeal.Read Cert.LstmStep
open Idealize.ShloMosaic Idealize.ShloMosaic.ValueIdx
open scoped BigOperators

/-! ## The three results -/

/-- The reference's sigmoid, `1 / (1 + exp (-g))` with the literal one, is the logistic function. -/
theorem sigmoid_eq (g : Ideal .f32) :
    FloatOps.hostDivf (FloatOps.ofBits (F := Ideal) .f32 0x3F800000#32)
        (FloatOps.addf (FloatOps.ofBits (F := Ideal) .f32 0x3F800000#32) (FloatOps.hostUnary .exp (FloatOps.hostNegf g)))
      = Ideal.logistic g := by
  simp only [Ideal.hostDivf_def, Ideal.addf_def, Ideal.ofBits_def, Ideal.ofBits_one_f32, Ideal.hostUnary_exp_def,
    Ideal.hostNegf_def, Ideal.negf_def]
  rfl

/-- The reference's new cell state is the specification's. -/
theorem cell_eq (A : Inputs) :
    val_main_v36 (F := Ideal) A.x A.h A.cell A.Wxi A.bi A.Whi A.Wxf A.bf A.Whf A.Wxc A.bc A.Whc A.Wxo A.bo A.Who = newCell A := by
  funext j
  obtain ⟨r, q, rfl⟩ : ∃ (r : Fin 4096) (q : Fin 2048), j = ix2 r q := ⟨j 0, j 1, eq_ix2 j⟩
  rw [val_main_v36_apply, val_main_v34_apply, val_main_v35_apply, val_main_v26_apply, val_main_v25_apply, val_main_cst_2_apply,
    val_main_v24_apply, val_main_v23_apply, val_main_cst_1_apply, val_main_v22_apply, val_main_v21_apply,
    val_main_v20_apply, val_main_v19_apply, val_main_cst_0_apply, val_main_v18_apply, val_main_v17_apply, val_main_cst_apply,
    val_main_v16_apply, val_main_v15_apply, val_main_v27_apply, gate0_eq, gate1_eq, gate2_eq, sigmoid_eq, sigmoid_eq]
  simp only [Ideal.addf_def, Ideal.mulf_def, Ideal.hostUnary_tanh_def]
  rfl

/-- The reference's new hidden state is the specification's. -/
theorem hidden_eq (A : Inputs) :
    val_main_v38 (F := Ideal) A.x A.h A.cell A.Wxi A.bi A.Whi A.Wxf A.bf A.Whf A.Wxc A.bc A.Whc A.Wxo A.bo A.Who = newHidden A := by
  funext j
  obtain ⟨r, q, rfl⟩ : ∃ (r : Fin 4096) (q : Fin 2048), j = ix2 r q := ⟨j 0, j 1, eq_ix2 j⟩
  rw [val_main_v38_apply, val_main_v37_apply, cell_eq A, val_main_v33_apply, val_main_v32_apply, val_main_cst_4_apply,
    val_main_v31_apply, val_main_v30_apply, val_main_cst_3_apply, val_main_v29_apply, val_main_v28_apply, gate3_eq, sigmoid_eq]
  simp only [Ideal.mulf_def, Ideal.hostUnary_tanh_def]
  rfl

/-- The reference's output is the specification's: row `r` of the new hidden state against row `o` of `Why`, plus entry `o` of
    the bias. -/
theorem output_eq (A : Inputs) :
    val_main_v43 (F := Ideal) A.x A.h A.cell A.Wxi A.bi A.Whi A.Wxf A.bf A.Whf A.Wxc A.bc A.Whc A.Wxo A.bo A.Who A.Why A.bhy = output A := by
  funext j
  obtain ⟨r, o, rfl⟩ : ∃ (r : Fin 4096) (o : Fin 1024), j = ix2 r o := ⟨j 0, j 1, eq_ix2 j⟩
  rw [val_main_v43_apply, val_main_v40_apply, val_main_v42_apply, val_main_v41_apply, hidden_eq A]
  have el : ∀ k : Fin 2048, lidx_main_v40 (ix2 r o) k = ix2 r k := fun k => funext fun a => Fin.ext (by
    match a with
    | ⟨0, _⟩ => rfl
    | ⟨1, _⟩ => rfl)
  have er : ∀ k : Fin 2048, idx_main_v39 (ridx_main_v40 (ix2 r o) k) = ix2 o k := fun k => funext fun a => Fin.ext (by
    match a with
    | ⟨0, _⟩ => rfl
    | ⟨1, _⟩ => rfl)
  have eb : idx_main_v41 (idx_main_v42 (ix2 r o)) = ix1 o := funext fun a => Fin.ext (by
    match a with
    | ⟨0, _⟩ => rfl)
  simp only [val_main_v39_apply, el, er, eb, Ideal.addf_def]
  rfl

end Cert.ReferenceIdeal.RefStep

end
-- ==== Proof.lean ====
/-
  Both programs compute one LSTM step: with sigma the logistic function and, for each of the four gates, the
  pre-activation g(r, q) = (row r of x against row q of Wx  +  row r of h against row q of Wh) + b(q), the new cell
  state is sigma(g_f) * cell + sigma(g_i) * tanh(g_c), the new hidden state is sigma(g_o) * tanh(new cell), and the
  output is row r of the new hidden state against row o of Why, plus bhy(o) (the functions `newCell`, `newHidden`,
  `output` of Proof/Spec.lean).  Over the extended reals the kernel's two regions end at these three arrays of the
  launch arguments (Proof/KernelStep.lean), and the reference's operations compose to the same three functions
  (Proof/RefStep.lean); both leave the arguments as launched.  Every sum is taken in the index order of the contracted
  axis on both sides, so the equality needs no rearrangement and no finiteness of the entries.
-/
import proofs.«105698_j43817256354365_1_alg».proof.Defs
import proofs.«105698_j43817256354365_1_alg».proof.Proof.Gen.Kernel
import proofs.«105698_j43817256354365_1_alg».proof.Proof.Gen.Kernel.Skeleton
import proofs.«105698_j43817256354365_1_alg».proof.Proof.Gen.Kernel.Launch
import proofs.«105698_j43817256354365_1_alg».proof.Proof.Gen.Kernel.Points
import proofs.«105698_j43817256354365_1_alg».proof.Proof.Gen.Kernel.Frame
import proofs.«105698_j43817256354365_1_alg».proof.Proof.Gen.KernelIdeal
import proofs.«105698_j43817256354365_1_alg».proof.Proof.Gen.KernelIdeal.Skeleton
import proofs.«105698_j43817256354365_1_alg».proof.Proof.Gen.KernelIdeal.Launch
import proofs.«105698_j43817256354365_1_alg».proof.Proof.Gen.KernelIdeal.Points
import proofs.«105698_j43817256354365_1_alg».proof.Proof.Gen.KernelIdeal.Frame
import proofs.«105698_j43817256354365_1_alg».proof.Proof.Gen.ReferenceIdeal
import proofs.«105698_j43817256354365_1_alg».proof.Proof.Gen.ReferenceIdeal.Run
import proofs.«105698_j43817256354365_1_alg».proof.Proof.Gen.ReferenceIdeal.Read
import proofs.«105698_j43817256354365_1_alg».proof.Proof.Gen.Pre_finite_inputs
import Idealize.ShloMosaic.Adequacy
import Idealize.ShloMosaic.Init
import proofs.«105698_j43817256354365_1_alg».proof.Proof.KernelStep
import proofs.«105698_j43817256354365_1_alg».proof.Proof.RefStep

noncomputable section

namespace Cert.Proof

open Idealize.ShloMosaic Idealize.SL.Sem
open Cert.LstmStep Cert.KernelIdeal.StepEntry

/-- The kernel as printed runs and leaves its arguments unchanged. -/
theorem frame_Kernel : Cert.frame_Kernel := fun m ρ _ => Cert.Kernel.Gen.frame m ρ

/-- So does the kernel read over the extended reals. -/
theorem frame_KernelIdeal : Cert.frame_KernelIdeal := fun m ρ _ => Cert.KernelIdeal.Gen.frame m ρ

/-- So does the reference: its run gives the three results as well, which are dropped here. -/
theorem frame_ReferenceIdeal : Cert.frame_ReferenceIdeal := fun m ρ _ =>
  (θ_run Cert.ReferenceIdeal.defs _ _).mono (fun _ h c => (h c).2.2.2) (Cert.ReferenceIdeal.Value.run (F := Ideal) m ρ)

/-- Reading the kernel over the extended reals rewrote none of its operations. -/
theorem preserves : Cert.preserves_Kernel_KernelIdeal := trivial

/-- From memories that agree on the seventeen arguments, the kernel and the reference both end with the step's output,
    new hidden state and new cell state of those arguments. -/
theorem algebraic : Cert.algebraic_KernelIdeal_ReferenceIdeal := by
  intro m ρ m' ρ' _ hagree
  refine ⟨fun c => output (inputsOf m c), fun c => newHidden (inputsOf m c), fun c => newCell (inputsOf m c),
    Cert.KernelIdeal.Step.run_step m ρ, ?_⟩
  refine (θ_run Cert.ReferenceIdeal.defs _ _).mono (fun _ h c => ?_) (Cert.ReferenceIdeal.Value.run (F := Ideal) m' ρ')
  obtain ⟨h0, h1, h2, h3, h4, h5, h6, h7, h8, h9, h10, h11, h12, h13, h14, h15, h16⟩ := hagree c
  refine ⟨(h c).1.trans ?_, (h c).2.1.trans ?_, (h c).2.2.1.trans ?_, (h c).2.2.2⟩
  · rw [Cert.ReferenceIdeal.Read.val_main_v43_eq, h0, h1, h2, h3, h4, h5, h6, h7, h8, h9, h10, h11, h12, h13, h14, h15, h16]
    exact Cert.ReferenceIdeal.RefStep.output_eq (inputsOf m c)
  · rw [Cert.ReferenceIdeal.Read.val_main_v38_eq, h0, h1, h2, h3, h4, h5, h6, h7, h8, h9, h10, h11, h12, h13, h14]
    exact Cert.ReferenceIdeal.RefStep.hidden_eq (inputsOf m c)
  · rw [Cert.ReferenceIdeal.Read.val_main_v36_eq, h0, h1, h2, h3, h4, h5, h6, h7, h8, h9, h10, h11, h12, h13, h14]
    exact Cert.ReferenceIdeal.RefStep.cell_eq (inputsOf m c)

theorem claim : Cert.Claim :=
  ⟨Cert.Kernel.Gen.facts, Cert.KernelIdeal.Gen.facts, Cert.ReferenceIdeal.Gen.facts, Cert.Pre_finite_inputs.Gen.facts,
    frame_Kernel, frame_KernelIdeal, frame_ReferenceIdeal, preserves, algebraic⟩

end Cert.Proof

end
